-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x640000 : Shape := ⟨2, ![2, 640000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x20 : Shape := ⟨2, ![32, 20]⟩
abbrev S20 : Shape := ⟨1, ![20]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x20 : S_.BroadcastsInDim S32x20 (![] : Fin 0 → Fin S32x20.rank)
  reducesTo_S32x20_S_d0_1 : S32x20.ReducesTo [0, 1] S_
  bcast_S_S20 : S_.BroadcastsInDim S20 (![] : Fin 0 → Fin S20.rank)
  reducesTo_S20_S_d0 : S20.ReducesTo [0] S_

variable [Facts]

def fn_part2 {F : FTy → Type} [FloatOps F] (main_arg8 : FVec F S32x20 .f32) (main_arg9 : FVec F S20 .f32) (main_arg10 : FVec F S32x20 .f32) (main_v33 : IVec S_ 1) : IVec S_ 1 :=
  let main_v34 : FVec F S32x20 .f32 := Host.absf main_arg8
  let main_cst_12 : FVec F S_ .f32 := constant S_ .f32 0x7F800000#32
  let main_v35 : FVec F S32x20 .f32 := broadcastInDim S32x20 ![] bcast_S_S32x20 main_cst_12
  let main_v36 : IVec S32x20 1 := cmpf .olt main_v34 main_v35
  let main_c_13 : IVec S_ 1 := constantI S_ 1 1#1
  let main_v37 : IVec S_ 1 := (fun x v => Host.reduce IntOp.andi x v reducesTo_S32x20_S_d0_1 h_S_) main_v36 main_c_13
  let main_v38 : IVec S_ 1 := andi main_v33 main_v37
  let main_v39 : FVec F S20 .f32 := Host.absf main_arg9
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S32x20 .f32 := Host.absf main_arg10
  let main_cst_16 : FVec F S_ .f32 := constant S_ .f32 0x7F800000#32
  let main_v45 : FVec F S32x20 .f32 := broadcastInDim S32x20 ![] bcast_S_S32x20 main_cst_16
  let main_v46 : IVec S32x20 1 := cmpf .olt main_v44 main_v45
  let main_c_17 : IVec S_ 1 := constantI S_ 1 1#1
  let main_v47 : IVec S_ 1 := (fun x v => Host.reduce IntOp.andi x v reducesTo_S32x20_S_d0_1 h_S_) main_v46 main_c_17
  let main_v48 : IVec S_ 1 := andi main_v43 main_v47
  main_v48

def fn_part1 {F : FTy → Type} [FloatOps F] (main_arg5 : FVec F S64x32 .f32) (main_arg6 : FVec F S32 .f32) (main_arg7 : FVec F S64x32 .f32) (main_arg8 : FVec F S32x20 .f32) (main_arg9 : FVec F S20 .f32) (main_arg10 : FVec F S32x20 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S200000x128 .f32) (main_arg1 : IVec S2x640000 32) (main_arg2 : FVec F S128x64 .f32) (main_arg3 : FVec F S64 .f32) (main_arg4 : FVec F S128x64 .f32) (main_arg5 : FVec F S64x32 .f32) (main_arg6 : FVec F S32 .f32) (main_arg7 : FVec F S64x32 .f32) (main_arg8 : FVec F S32x20 .f32) (main_arg9 : FVec F S20 .f32) (main_arg10 : FVec F S32x20 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_v13 main_v16
-- ==== Kernel.lean ====
abbrev S200000x128 : Shape := ⟨2, ![200000, 128]⟩
abbrev S2x640000 : Shape := ⟨2, ![2, 640000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x20 : Shape := ⟨2, ![32, 20]⟩
abbrev S20 : Shape := ⟨1, ![20]⟩
abbrev S1x640000 : Shape := ⟨2, ![1, 640000]⟩
abbrev S640000 : Shape := ⟨1, ![640000]⟩
abbrev S_ : Shape := ⟨0, ![]⟩
abbrev S200000 : Shape := ⟨1, ![200000]⟩
abbrev S640000x1 : Shape := ⟨2, ![640000, 1]⟩
abbrev S640000x128 : Shape := ⟨2, ![640000, 128]⟩
abbrev S200000x1 : Shape := ⟨2, ![200000, 1]⟩
abbrev S1x64 : Shape := ⟨2, ![1, 64]⟩
abbrev S200000x64 : Shape := ⟨2, ![200000, 64]⟩
abbrev S4000x128 : Shape := ⟨2, ![4000, 128]⟩
abbrev S4000x64 : Shape := ⟨2, ![4000, 64]⟩
abbrev S640000x64 : Shape := ⟨2, ![640000, 64]⟩
abbrev S1x32 : Shape := ⟨2, ![1, 32]⟩
abbrev S200000x32 : Shape := ⟨2, ![200000, 32]⟩
abbrev S4000x32 : Shape := ⟨2, ![4000, 32]⟩
abbrev S640000x32 : Shape := ⟨2, ![640000, 32]⟩
abbrev S1x20 : Shape := ⟨2, ![1, 20]⟩
abbrev S200000x20 : Shape := ⟨2, ![200000, 20]⟩
abbrev S4000x20 : Shape := ⟨2, ![4000, 20]⟩

abbrev nBuf : Space → Nat
  | .hbm => 88
  | .vmem => 27
  | .smem => 0
  | _ => 0

abbrev bufTy : (tb : Table) → Fin (tcTables nBuf tb) → BufTy
  | .hbm, ⟨0, _⟩ => ⟨S200000x128, .f32⟩
  | .hbm, ⟨1, _⟩ => ⟨S2x640000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x20, .f32⟩
  | .hbm, ⟨9, _⟩ => ⟨S20, .f32⟩
  | .hbm, ⟨10, _⟩ => ⟨S32x20, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S200000, .f32⟩
  | .hbm, ⟨19, _⟩ => ⟨S640000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .f32⟩
  | .hbm, ⟨31, _⟩ => ⟨S_, .f32⟩
  | .hbm, ⟨32, _⟩ => ⟨S200000, .f32⟩
  | .hbm, ⟨33, _⟩ => ⟨S200000, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S200000x128, .f32⟩
  | .hbm, ⟨45, _⟩ => ⟨S640000x1, .i32⟩
  | .hbm, ⟨46, _⟩ => ⟨S200000x128, .f32⟩
  | .hbm, ⟨47, _⟩ => ⟨S200000x1, .f32⟩
  | .hbm, ⟨48, _⟩ => ⟨S200000x128, .f32⟩
  | .hbm, ⟨49, _⟩ => ⟨S200000x128, .f32⟩
  | .hbm, ⟨50, _⟩ => ⟨S1x64, .f32⟩
  | .hbm, ⟨51, _⟩ => ⟨S200000x64, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x64, .f32⟩
  | .hbm, ⟨61, _⟩ => ⟨S_, .f32⟩
  | .hbm, ⟨62, _⟩ => ⟨S200000x64, .f32⟩
  | .hbm, ⟨63, _⟩ => ⟨S640000x1, .i32⟩
  | .hbm, ⟨64, _⟩ => ⟨S200000x64, .f32⟩
  | .hbm, ⟨65, _⟩ => ⟨S200000x1, .f32⟩
  | .hbm, ⟨66, _⟩ => ⟨S200000x64, .f32⟩
  | .hbm, ⟨67, _⟩ => ⟨S200000x64, .f32⟩
  | .hbm, ⟨68, _⟩ => ⟨S1x32, .f32⟩
  | .hbm, ⟨69, _⟩ => ⟨S200000x32, .f32⟩
  | .hbm, ⟨70, _⟩ => ⟨S_, .i32⟩
  | .hbm, ⟨71, _⟩ => ⟨S640000, .i32⟩
  | .hbm, ⟨72, _⟩ => ⟨S640000, .i1⟩
  | .hbm, ⟨73, _⟩ => ⟨S_, .i32⟩
  | .hbm, ⟨74, _⟩ => ⟨S640000, .i32⟩
  | .hbm, ⟨75, _⟩ => ⟨S640000, .i32⟩
  | .hbm, ⟨76, _⟩ => ⟨S640000, .i32⟩
  | .hbm, ⟨77, _⟩ => ⟨S640000x1, .i32⟩
  | .hbm, ⟨78, _⟩ => ⟨S640000x32, .f32⟩
  | .hbm, ⟨79, _⟩ => ⟨S_, .f32⟩
  | .hbm, ⟨80, _⟩ => ⟨S200000x32, .f32⟩
  | .hbm, ⟨81, _⟩ => ⟨S640000x1, .i32⟩
  | .hbm, ⟨82, _⟩ => ⟨S200000x32, .f32⟩
  | .hbm, ⟨83, _⟩ => ⟨S200000x1, .f32⟩
  | .hbm, ⟨84, _⟩ => ⟨S200000x32, .f32⟩
  | .hbm, ⟨85, _⟩ => ⟨S200000x32, .f32⟩
  | .hbm, ⟨86, _⟩ => ⟨S1x20, .f32⟩
  | .hbm, ⟨87, _⟩ => ⟨S200000x20, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S4000x32, .f32⟩
  | .local _ .vmem, ⟨17, _⟩ => ⟨S4000x32, .f32⟩
  | .local _ .vmem, ⟨18, _⟩ => ⟨S4000x32, .f32⟩
  | .local _ .vmem, ⟨19, _⟩ => ⟨S4000x32, .f32⟩
  | .local _ .vmem, ⟨20, _⟩ => ⟨S4000x32, .f32⟩
  | .local _ .vmem, ⟨21, _⟩ => ⟨S4000x32, .f32⟩
  | .local _ .vmem, ⟨22, _⟩ => ⟨S32x20, .f32⟩
  | .local _ .vmem, ⟨23, _⟩ => ⟨S1x20, .f32⟩
  | .local _ .vmem, ⟨24, _⟩ => ⟨S32x20, .f32⟩
  | .local _ .vmem, ⟨25, _⟩ => ⟨S4000x20, .f32⟩
  | .local _ .vmem, ⟨26, _⟩ => ⟨S4000x20, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x20 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x20 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S200000 : S_.BroadcastsInDim S200000 (![] : Fin 0 → Fin S200000.rank)
  bcast_S640000_S640000x1_0 : S640000.BroadcastsInDim S640000x1 (![0] : Fin 1 → Fin S640000x1.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  shapeCasts_S32_S1x32 : S32.ShapeCasts S1x32
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  shapeCasts_S20_S1x20 : S20.ShapeCasts S1x20
  shapeCasts_S4000x32_S4000x32 : S4000x32.ShapeCasts S4000x32
  inb_S32x20_S32x20_0_0 : ∀ a, (![0, 0] : Fin 2 → Nat) a + S32x20.size a ≤ S32x20.size a
  h_S32x20 : 0 < S32x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S4000x20 : S1x20.Broadcasts S4000x20
  inb_S4000x20_S4000x20_0_0 : ∀ a, (![0, 0] : Fin 2 → Nat) a + S4000x20.size a ≤ S4000x20.size a
  h_S4000x20 : 0 < S4000x20.numel
  scatter_S200000_S640000x1_S640000_n_0_0_1_wf : ScatterDims.WF S200000 S640000x1 S640000 [] [0] [0] 1
  gather_S200000x128_S640000x1_S640000x128_1_0_n_n_0_1_1128_wf : GatherDims.WF S200000x128 S640000x1 S640000x128 [1] [0] [] [0] [] 1 ![1, 128]
  scatter_S200000x128_S640000x1_S640000x128_1_0_0_1_wf : ScatterDims.WF S200000x128 S640000x1 S640000x128 [1] [0] [0] 1
  dot_S4000x128_S128x64_S4000x64_1_0_0_1_n_n_wf : DotDims.WF S4000x128 S128x64 S4000x64 [1] [0] [0] [1] [] []
  gather_S200000x64_S640000x1_S640000x64_1_0_n_n_0_1_164_wf : GatherDims.WF S200000x64 S640000x1 S640000x64 [1] [0] [] [0] [] 1 ![1, 64]
  scatter_S200000x64_S640000x1_S640000x64_1_0_0_1_wf : ScatterDims.WF S200000x64 S640000x1 S640000x64 [1] [0] [0] 1
  dot_S4000x64_S64x32_S4000x32_1_0_0_1_n_n_wf : DotDims.WF S4000x64 S64x32 S4000x32 [1] [0] [0] [1] [] []
  gather_S200000x32_S640000x1_S640000x32_1_0_n_n_0_1_132_wf : GatherDims.WF S200000x32 S640000x1 S640000x32 [1] [0] [] [0] [] 1 ![1, 32]
  scatter_S200000x32_S640000x1_S640000x32_1_0_0_1_wf : ScatterDims.WF S200000x32 S640000x1 S640000x32 [1] [0] [0] 1
  dot_S4000x32_S32x20_S4000x20_1_0_0_1_n_n_wf : DotDims.WF S4000x32 S32x20 S4000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S200000x64.size a
  hwx0_5 : ∀ i : grid0.Coords, EltTy.bits .f32 = 32 ∨ (Rect.block (s := S200000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S200000x64.size a
  hwx1_1 : ∀ i : grid1.Coords, EltTy.bits .f32 = 32 ∨ (Rect.block (s := S200000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S200000x32.size a
  hwx1_5 : ∀ i : grid1.Coords, EltTy.bits .f32 = 32 ∨ (Rect.block (s := S200000x32) S4000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S200000x32.size a
  hwx2_0 : ∀ i : grid2.Coords, EltTy.bits .f32 = 32 ∨ (Rect.block (s := S200000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S200000x32.size a
  hwx2_1 : ∀ i : grid2.Coords, EltTy.bits .f32 = 32 ∨ (Rect.block (s := S200000x32) S4000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x20.size a ≤ S32x20.size a
  hwx2_2 : ∀ i : grid2.Coords, EltTy.bits .f32 = 32 ∨ (Rect.block (s := S32x20) S32x20.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20.size a ≤ S1x20.size a
  hwx2_3 : ∀ i : grid2.Coords, EltTy.bits .f32 = 32 ∨ (Rect.block (s := S1x20) S1x20.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x20.size a ≤ S32x20.size a
  hwx2_4 : ∀ i : grid2.Coords, EltTy.bits .f32 = 32 ∨ (Rect.block (s := S32x20) S32x20.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x20.size a ≤ S200000x20.size a
  hwx2_5 : ∀ i : grid2.Coords, EltTy.bits .f32 = 32 ∨ (Rect.block (s := S200000x20) S4000x20.size (cc2_transform_5 i) (hinb2_5 i)).WholeWords (EltTy.packing .f32)

variable [Facts₀]

def scatter_S200000_S640000x1_S640000_n_0_0_1 : ScatterDims S200000 S640000x1 S640000 where
  updateWindowDims := []
  insertedWindowDims := [0]
  scatterDimsToOperandDims := [0]
  indexVectorDim := 1
  wf := scatter_S200000_S640000x1_S640000_n_0_0_1_wf
def gather_S200000x128_S640000x1_S640000x128_1_0_n_n_0_1_1128 : GatherDims S200000x128 S640000x1 S640000x128 where
  offsetDims := [1]
  collapsedSliceDims := [0]
  operandBatchingDims := []
  startIndicesBatchingDims := []
  startIndexMap := [0]
  indexVectorDim := 1
  sliceSizes := ![1, 128]
  wf := gather_S200000x128_S640000x1_S640000x128_1_0_n_n_0_1_1128_wf
def scatter_S200000x128_S640000x1_S640000x128_1_0_0_1 : ScatterDims S200000x128 S640000x1 S640000x128 where
  updateWindowDims := [1]
  insertedWindowDims := [0]
  scatterDimsToOperandDims := [0]
  indexVectorDim := 1
  wf := scatter_S200000x128_S640000x1_S640000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S200000x64_S640000x1_S640000x64_1_0_n_n_0_1_164 : GatherDims S200000x64 S640000x1 S640000x64 where
  offsetDims := [1]
  collapsedSliceDims := [0]
  operandBatchingDims := []
  startIndicesBatchingDims := []
  startIndexMap := [0]
  indexVectorDim := 1
  sliceSizes := ![1, 64]
  wf := gather_S200000x64_S640000x1_S640000x64_1_0_n_n_0_1_164_wf
def scatter_S200000x64_S640000x1_S640000x64_1_0_0_1 : ScatterDims S200000x64 S640000x1 S640000x64 where
  updateWindowDims := [1]
  insertedWindowDims := [0]
  scatterDimsToOperandDims := [0]
  indexVectorDim := 1
  wf := scatter_S200000x64_S640000x1_S640000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S200000x32_S640000x1_S640000x32_1_0_n_n_0_1_132 : GatherDims S200000x32 S640000x1 S640000x32 where
  offsetDims := [1]
  collapsedSliceDims := [0]
  operandBatchingDims := []
  startIndicesBatchingDims := []
  startIndexMap := [0]
  indexVectorDim := 1
  sliceSizes := ![1, 32]
  wf := gather_S200000x32_S640000x1_S640000x32_1_0_n_n_0_1_132_wf
def scatter_S200000x32_S640000x1_S640000x32_1_0_0_1 : ScatterDims S200000x32 S640000x1 S640000x32 where
  updateWindowDims := [1]
  insertedWindowDims := [0]
  scatterDimsToOperandDims := [0]
  indexVectorDim := 1
  wf := scatter_S200000x32_S640000x1_S640000x32_1_0_0_1_wf
def dot_S4000x32_S32x20_S4000x20_1_0_0_1_n_n : DotDims S4000x32 S32x20 S4000x20 where
  lhsContracting := [1]
  rhsContracting := [0]
  lhsNonContracting := [0]
  rhsNonContracting := [1]
  lhsBatch := []
  rhsBatch := []
  wf := dot_S4000x32_S32x20_S4000x20_1_0_0_1_n_n_wf

abbrev win0_0 : Pipeline.Window sig grid0 :=
  Pipeline.Window.ofSpec (Memref.whole main_v27) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S4000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x20.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S32x20.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S4000x20.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S200000x128 : Shape := ⟨2, ![200000, 128]⟩
abbrev S2x640000 : Shape := ⟨2, ![2, 640000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x20 : Shape := ⟨2, ![32, 20]⟩
abbrev S20 : Shape := ⟨1, ![20]⟩
abbrev S1x640000 : Shape := ⟨2, ![1, 640000]⟩
abbrev S640000 : Shape := ⟨1, ![640000]⟩
abbrev S_ : Shape := ⟨0, ![]⟩
abbrev S200000 : Shape := ⟨1, ![200000]⟩
abbrev S640000x1 : Shape := ⟨2, ![640000, 1]⟩
abbrev S640000x128 : Shape := ⟨2, ![640000, 128]⟩
abbrev S200000x1 : Shape := ⟨2, ![200000, 1]⟩
abbrev S200000x64 : Shape := ⟨2, ![200000, 64]⟩
abbrev S1x64 : Shape := ⟨2, ![1, 64]⟩
abbrev S640000x64 : Shape := ⟨2, ![640000, 64]⟩
abbrev S200000x32 : Shape := ⟨2, ![200000, 32]⟩
abbrev S1x32 : Shape := ⟨2, ![1, 32]⟩
abbrev S640000x32 : Shape := ⟨2, ![640000, 32]⟩
abbrev S200000x20 : Shape := ⟨2, ![200000, 20]⟩
abbrev S1x20 : Shape := ⟨2, ![1, 20]⟩

abbrev nBuf : Space → Nat
  | .hbm => 106
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x640000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x20, .f32⟩
  | .hbm, ⟨9, _⟩ => ⟨S20, .f32⟩
  | .hbm, ⟨10, _⟩ => ⟨S32x20, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S200000, .f32⟩
  | .hbm, ⟨19, _⟩ => ⟨S640000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .f32⟩
  | .hbm, ⟨31, _⟩ => ⟨S_, .f32⟩
  | .hbm, ⟨32, _⟩ => ⟨S200000, .f32⟩
  | .hbm, ⟨33, _⟩ => ⟨S200000, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S200000x128, .f32⟩
  | .hbm, ⟨45, _⟩ => ⟨S640000x1, .i32⟩
  | .hbm, ⟨46, _⟩ => ⟨S200000x128, .f32⟩
  | .hbm, ⟨47, _⟩ => ⟨S200000x1, .f32⟩
  | .hbm, ⟨48, _⟩ => ⟨S200000x128, .f32⟩
  | .hbm, ⟨49, _⟩ => ⟨S200000x128, .f32⟩
  | .hbm, ⟨50, _⟩ => ⟨S200000x64, .f32⟩
  | .hbm, ⟨51, _⟩ => ⟨S1x64, .f32⟩
  | .hbm, ⟨52, _⟩ => ⟨S200000x64, .f32⟩
  | .hbm, ⟨53, _⟩ => ⟨S200000x64, .f32⟩
  | .hbm, ⟨54, _⟩ => ⟨S200000x64, .f32⟩
  | .hbm, ⟨55, _⟩ => ⟨S200000x64, .f32⟩
  | .hbm, ⟨56, _⟩ => ⟨S_, .f32⟩
  | .hbm, ⟨57, _⟩ => ⟨S200000x64, .f32⟩
  | .hbm, ⟨58, _⟩ => ⟨S200000x64, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x64, .f32⟩
  | .hbm, ⟨68, _⟩ => ⟨S_, .f32⟩
  | .hbm, ⟨69, _⟩ => ⟨S200000x64, .f32⟩
  | .hbm, ⟨70, _⟩ => ⟨S640000x1, .i32⟩
  | .hbm, ⟨71, _⟩ => ⟨S200000x64, .f32⟩
  | .hbm, ⟨72, _⟩ => ⟨S200000x1, .f32⟩
  | .hbm, ⟨73, _⟩ => ⟨S200000x64, .f32⟩
  | .hbm, ⟨74, _⟩ => ⟨S200000x64, .f32⟩
  | .hbm, ⟨75, _⟩ => ⟨S200000x32, .f32⟩
  | .hbm, ⟨76, _⟩ => ⟨S1x32, .f32⟩
  | .hbm, ⟨77, _⟩ => ⟨S200000x32, .f32⟩
  | .hbm, ⟨78, _⟩ => ⟨S200000x32, .f32⟩
  | .hbm, ⟨79, _⟩ => ⟨S200000x32, .f32⟩
  | .hbm, ⟨80, _⟩ => ⟨S200000x32, .f32⟩
  | .hbm, ⟨81, _⟩ => ⟨S_, .f32⟩
  | .hbm, ⟨82, _⟩ => ⟨S200000x32, .f32⟩
  | .hbm, ⟨83, _⟩ => ⟨S200000x32, .f32⟩
  | .hbm, ⟨84, _⟩ => ⟨S_, .i32⟩
  | .hbm, ⟨85, _⟩ => ⟨S640000, .i32⟩
  | .hbm, ⟨86, _⟩ => ⟨S640000, .i1⟩
  | .hbm, ⟨87, _⟩ => ⟨S_, .i32⟩
  | .hbm, ⟨88, _⟩ => ⟨S640000, .i32⟩
  | .hbm, ⟨89, _⟩ => ⟨S640000, .i32⟩
  | .hbm, ⟨90, _⟩ => ⟨S640000, .i32⟩
  | .hbm, ⟨91, _⟩ => ⟨S640000x1, .i32⟩
  | .hbm, ⟨92, _⟩ => ⟨S640000x32, .f32⟩
  | .hbm, ⟨93, _⟩ => ⟨S_, .f32⟩
  | .hbm, ⟨94, _⟩ => ⟨S200000x32, .f32⟩
  | .hbm, ⟨95, _⟩ => ⟨S640000x1, .i32⟩
  | .hbm, ⟨96, _⟩ => ⟨S200000x32, .f32⟩
  | .hbm, ⟨97, _⟩ => ⟨S200000x1, .f32⟩
  | .hbm, ⟨98, _⟩ => ⟨S200000x32, .f32⟩
  | .hbm, ⟨99, _⟩ => ⟨S200000x32, .f32⟩
  | .hbm, ⟨100, _⟩ => ⟨S200000x20, .f32⟩
  | .hbm, ⟨101, _⟩ => ⟨S1x20, .f32⟩
  | .hbm, ⟨102, _⟩ => ⟨S200000x20, .f32⟩
  | .hbm, ⟨103, _⟩ => ⟨S200000x20, .f32⟩
  | .hbm, ⟨104, _⟩ => ⟨S200000x20, .f32⟩
  | .hbm, ⟨105, _⟩ => ⟨S200000x20, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S200000 : S_.BroadcastsInDim S200000 (![] : Fin 0 → Fin S200000.rank)
  bcast_S640000_S640000x1_0 : S640000.BroadcastsInDim S640000x1 (![0] : Fin 1 → Fin S640000x1.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  bcast_S20_S1x20_1 : S20.BroadcastsInDim S1x20 (![1] : Fin 1 → Fin S1x20.rank)
  bcast_S1x20_S200000x20_0_1 : S1x20.BroadcastsInDim S200000x20 (![0, 1] : Fin 2 → Fin S200000x20.rank)
  scatter_S200000_S640000x1_S640000_n_0_0_1_wf : ScatterDims.WF S200000 S640000x1 S640000 [] [0] [0] 1
  gather_S200000x128_S640000x1_S640000x128_1_0_n_n_0_1_1128_wf : GatherDims.WF S200000x128 S640000x1 S640000x128 [1] [0] [] [0] [] 1 ![1, 128]
  scatter_S200000x128_S640000x1_S640000x128_1_0_0_1_wf : ScatterDims.WF S200000x128 S640000x1 S640000x128 [1] [0] [0] 1
  dot_S200000x128_S128x64_S200000x64_1_0_0_1_n_n_wf : DotDims.WF S200000x128 S128x64 S200000x64 [1] [0] [0] [1] [] []
  gather_S200000x64_S640000x1_S640000x64_1_0_n_n_0_1_164_wf : GatherDims.WF S200000x64 S640000x1 S640000x64 [1] [0] [] [0] [] 1 ![1, 64]
  scatter_S200000x64_S640000x1_S640000x64_1_0_0_1_wf : ScatterDims.WF S200000x64 S640000x1 S640000x64 [1] [0] [0] 1
  dot_S200000x64_S64x32_S200000x32_1_0_0_1_n_n_wf : DotDims.WF S200000x64 S64x32 S200000x32 [1] [0] [0] [1] [] []
  gather_S200000x32_S640000x1_S640000x32_1_0_n_n_0_1_132_wf : GatherDims.WF S200000x32 S640000x1 S640000x32 [1] [0] [] [0] [] 1 ![1, 32]
  scatter_S200000x32_S640000x1_S640000x32_1_0_0_1_wf : ScatterDims.WF S200000x32 S640000x1 S640000x32 [1] [0] [0] 1
  dot_S200000x32_S32x20_S200000x20_1_0_0_1_n_n_wf : DotDims.WF S200000x32 S32x20 S200000x20 [1] [0] [0] [1] [] []

variable [Facts₀]

def scatter_S200000_S640000x1_S640000_n_0_0_1 : ScatterDims S200000 S640000x1 S640000 where
  updateWindowDims := []
  insertedWindowDims := [0]
  scatterDimsToOperandDims := [0]
  indexVectorDim := 1
  wf := scatter_S200000_S640000x1_S640000_n_0_0_1_wf
def gather_S200000x128_S640000x1_S640000x128_1_0_n_n_0_1_1128 : GatherDims S200000x128 S640000x1 S640000x128 where
  offsetDims := [1]
  collapsedSliceDims := [0]
  operandBatchingDims := []
  startIndicesBatchingDims := []
  startIndexMap := [0]
  indexVectorDim := 1
  sliceSizes := ![1, 128]
  wf := gather_S200000x128_S640000x1_S640000x128_1_0_n_n_0_1_1128_wf
def scatter_S200000x128_S640000x1_S640000x128_1_0_0_1 : ScatterDims S200000x128 S640000x1 S640000x128 where
  updateWindowDims := [1]
  insertedWindowDims := [0]
  scatterDimsToOperandDims := [0]
  indexVectorDim := 1
  wf := scatter_S200000x128_S640000x1_S640000x128_1_0_0_1_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000x64_S640000x1_S640000x64_1_0_n_n_0_1_164 : GatherDims S200000x64 S640000x1 S640000x64 where
  offsetDims := [1]
  collapsedSliceDims := [0]
  operandBatchingDims := []
  startIndicesBatchingDims := []
  startIndexMap := [0]
  indexVectorDim := 1
  sliceSizes := ![1, 64]
  wf := gather_S200000x64_S640000x1_S640000x64_1_0_n_n_0_1_164_wf
def scatter_S200000x64_S640000x1_S640000x64_1_0_0_1 : ScatterDims S200000x64 S640000x1 S640000x64 where
  updateWindowDims := [1]
  insertedWindowDims := [0]
  scatterDimsToOperandDims := [0]
  indexVectorDim := 1
  wf := scatter_S200000x64_S640000x1_S640000x64_1_0_0_1_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def gather_S200000x32_S640000x1_S640000x32_1_0_n_n_0_1_132 : GatherDims S200000x32 S640000x1 S640000x32 where
  offsetDims := [1]
  collapsedSliceDims := [0]
  operandBatchingDims := []
  startIndicesBatchingDims := []
  startIndexMap := [0]
  indexVectorDim := 1
  sliceSizes := ![1, 32]
  wf := gather_S200000x32_S640000x1_S640000x32_1_0_n_n_0_1_132_wf
def scatter_S200000x32_S640000x1_S640000x32_1_0_0_1 : ScatterDims S200000x32 S640000x1 S640000x32 where
  updateWindowDims := [1]
  insertedWindowDims := [0]
  scatterDimsToOperandDims := [0]
  indexVectorDim := 1
  wf := scatter_S200000x32_S640000x1_S640000x32_1_0_0_1_wf
def dot_S200000x32_S32x20_S200000x20_1_0_0_1_n_n : DotDims S200000x32 S32x20 S200000x20 where
  lhsContracting := [1]
  rhsContracting := [0]
  lhsNonContracting := [0]
  rhsNonContracting := [1]
  lhsBatch := []
  rhsBatch := []
  wf := dot_S200000x32_S32x20_S200000x20_1_0_0_1_n_n_wf

class Facts : Prop extends Facts₀ where

variable [Facts]
-- ==== Proof.KRun.lean ====
/-
  The idealized kernel program's run with its last boundary's contents named: every weakly fair execution of @main
  terminates, nothing faulting, and every buffer that lives through the whole program ends holding what the fold
  through the host stretches and the three regions leaves in it (the valuation `W8` of the frame module). The frame
  module states this only for the argument arrays; here it is stated for every such buffer, so that the result array can
  be read.
-/
import proofs.«149559_j69475390980569_1_alg».proof.Proof.Gen.KernelIdeal.Frame

set_option maxRecDepth 16384

noncomputable section

namespace Cert.KernelIdeal.GenRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every program-long buffer at the last boundary's contents. -/
theorem run_W8 : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The result array and the argument arrays after the run: the result at the last boundary's contents, the arguments
    as launched. -/
theorem run_result : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)
    (run_W8 m ρ)

end Cert.KernelIdeal.GenRun

end
-- ==== Proof.Stages.lean ====
/-
  The host side of the graph convolution as functions of arrays, at the ideal values: the two index rows of the edge
  list, the reciprocal in-degree, the mean aggregation of a feature array over the incoming edges (gather the source
  rows, add them into the destination rows, scale each row by the reciprocal in-degree), at the three feature widths;
  and the reference's dense layer on whole arrays (the aggregated features times the left weights, plus the bias, plus
  the node features times the right weights, then, in the first two layers, the maximum with zero). The functions are
  spelt with the host operations of the printed programs, so that a program's run meets them by unfolding.
-/
import proofs.«149559_j69475390980569_1_alg».proof.Proof.Gen.KernelIdeal
import proofs.«149559_j69475390980569_1_alg».proof.Proof.Gen.ReferenceIdeal
import Idealize.ShloMosaic.PureOps.Ideal

noncomputable section

namespace Cert.Stages

open Idealize.ShloMosaic Idealize.ShloMosaic.TcCoe Idealize.SL.Sem
open Cert.KernelIdeal Cert.KernelIdeal.Facts₀ Cert.KernelIdeal.Facts

abbrev Edges := (⟨S2x640000, .i32⟩ : BufTy).Contents (Elt Ideal)
abbrev EdgeRow := (⟨S640000, .i32⟩ : BufTy).Contents (Elt Ideal)

/-- The edges' source nodes: row 0 of the edge list. -/
def src (e : Edges) : EdgeRow :=
  shapeCast S640000 (extractStridedSlice S1x640000 ![0, 0] e slices_S2x640000_S1x640000_0_0) shapeCasts_S1x640000_S640000

/-- The edges' destination nodes: row 1 of the edge list. -/
def dst (e : Edges) : EdgeRow :=
  shapeCast S640000 (extractStridedSlice S1x640000 ![1, 0] e slices_S2x640000_S1x640000_1_0) shapeCasts_S1x640000_S640000

/-- The in-degree of every node: a one added at each edge's destination. -/
def deg (d : EdgeRow) : FVec Ideal S200000 .f32 :=
  Host.scatterAdd scatter_S200000_S640000x1_S640000_n_0_0_1
    (broadcastInDim S200000 ![] bcast_S_S200000 (constant (F := Ideal) S_ .f32 0x00000000#32))
    (broadcastInDim S640000x1 ![0] bcast_S640000_S640000x1_0 d)
    (broadcastInDim S640000 ![] bcast_S_S640000 (constant (F := Ideal) S_ .f32 0x3F800000#32))

/-- The reciprocal in-degree, zero where the in-degree is zero. -/
def invDeg (d : EdgeRow) : FVec Ideal S200000 .f32 :=
  select (cmpf (F := Ideal) .ogt (deg d) (broadcastInDim S200000 ![] bcast_S_S200000 (constant (F := Ideal) S_ .f32 0x00000000#32)))
    (Host.divf (broadcastInDim S200000 ![] bcast_S_S200000 (constant (F := Ideal) S_ .f32 0x3F800000#32))
      (maximumf (deg d) (broadcastInDim S200000 ![] bcast_S_S200000 (constant (F := Ideal) S_ .f32 0x3F800000#32))))
    (broadcastInDim S200000 ![] bcast_S_S200000 (id (constant (F := Ideal) S_ .f32 0x00000000#32)))

/-- The source nodes as gather indices: a negative index counts from the end. -/
def srcN (s : EdgeRow) : EdgeRow :=
  select (cmpi .slt s (broadcastInDim S640000 ![] bcast_S_S640000 (constantI S_ 32 0#32)))
    (addi s (broadcastInDim S640000 ![] bcast_S_S640000 (constantI S_ 32 200000#32))) s

/-- Mean aggregation over the incoming edges, feature width 128. -/
def agg128 (h : FVec Ideal S200000x128 .f32) (s d : EdgeRow) (inv : FVec Ideal S200000 .f32) : FVec Ideal S200000x128 .f32 :=
  mulf (Host.scatterAdd scatter_S200000x128_S640000x1_S640000x128_1_0_0_1
      (broadcastInDim S200000x128 ![] bcast_S_S200000x128 (constant (F := Ideal) S_ .f32 0x00000000#32))
      (broadcastInDim S640000x1 ![0] bcast_S640000_S640000x1_0 d)
      (Host.gather gather_S200000x128_S640000x1_S640000x128_1_0_n_n_0_1_1128 h
        (broadcastInDim S640000x1 ![0] bcast_S640000_S640000x1_0 (srcN s))))
    (broadcastInDim S200000x128 ![0, 1] bcast_S200000x1_S200000x128_0_1 (broadcastInDim S200000x1 ![0] bcast_S200000_S200000x1_0 inv))

/-- Mean aggregation over the incoming edges, feature width 64. -/
def agg64 (h : FVec Ideal S200000x64 .f32) (s d : EdgeRow) (inv : FVec Ideal S200000 .f32) : FVec Ideal S200000x64 .f32 :=
  mulf (Host.scatterAdd scatter_S200000x64_S640000x1_S640000x64_1_0_0_1
      (broadcastInDim S200000x64 ![] bcast_S_S200000x64 (constant (F := Ideal) S_ .f32 0x00000000#32))
      (broadcastInDim S640000x1 ![0] bcast_S640000_S640000x1_0 d)
      (Host.gather gather_S200000x64_S640000x1_S640000x64_1_0_n_n_0_1_164 h
        (broadcastInDim S640000x1 ![0] bcast_S640000_S640000x1_0 (srcN s))))
    (broadcastInDim S200000x64 ![0, 1] bcast_S200000x1_S200000x64_0_1 (broadcastInDim S200000x1 ![0] bcast_S200000_S200000x1_0 inv))

/-- Mean aggregation over the incoming edges, feature width 32. -/
def agg32 (h : FVec Ideal S200000x32 .f32) (s d : EdgeRow) (inv : FVec Ideal S200000 .f32) : FVec Ideal S200000x32 .f32 :=
  mulf (Host.scatterAdd scatter_S200000x32_S640000x1_S640000x32_1_0_0_1
      (broadcastInDim S200000x32 ![] bcast_S_S200000x32 (constant (F := Ideal) S_ .f32 0x00000000#32))
      (broadcastInDim S640000x1 ![0] bcast_S640000_S640000x1_0 d)
      (Host.gather gather_S200000x32_S640000x1_S640000x32_1_0_n_n_0_1_132 h
        (broadcastInDim S640000x1 ![0] bcast_S640000_S640000x1_0 (srcN s))))
    (broadcastInDim S200000x32 ![0, 1] bcast_S200000x1_S200000x32_0_1 (broadcastInDim S200000x1 ![0] bcast_S200000_S200000x1_0 inv))

section Reference
open Cert.ReferenceIdeal (dot_S200000x128_S128x64_S200000x64_1_0_0_1_n_n dot_S200000x64_S64x32_S200000x32_1_0_0_1_n_n dot_S200000x32_S32x20_S200000x20_1_0_0_1_n_n)

/-- The reference's first layer on whole arrays: 128 features to 64, cut off below at zero. -/
def lin1 (A X : FVec Ideal S200000x128 .f32) (Wl : FVec Ideal S128x64 .f32) (bl : FVec Ideal S64 .f32) (Wr : FVec Ideal S128x64 .f32) :
    FVec Ideal S200000x64 .f32 :=
  maximumf (addf (addf (Host.dotGeneral dot_S200000x128_S128x64_S200000x64_1_0_0_1_n_n none A Wl)
      (broadcastInDim S200000x64 ![0, 1] Cert.ReferenceIdeal.Facts₀.bcast_S1x64_S200000x64_0_1
        (broadcastInDim S1x64 ![1] Cert.ReferenceIdeal.Facts₀.bcast_S64_S1x64_1 bl)))
      (Host.dotGeneral dot_S200000x128_S128x64_S200000x64_1_0_0_1_n_n none X Wr))
    (broadcastInDim S200000x64 ![] bcast_S_S200000x64 (constant (F := Ideal) S_ .f32 0x00000000#32))

/-- The reference's second layer on whole arrays: 64 features to 32, cut off below at zero. -/
def lin2 (A X : FVec Ideal S200000x64 .f32) (Wl : FVec Ideal S64x32 .f32) (bl : FVec Ideal S32 .f32) (Wr : FVec Ideal S64x32 .f32) :
    FVec Ideal S200000x32 .f32 :=
  maximumf (addf (addf (Host.dotGeneral dot_S200000x64_S64x32_S200000x32_1_0_0_1_n_n none A Wl)
      (broadcastInDim S200000x32 ![0, 1] Cert.ReferenceIdeal.Facts₀.bcast_S1x32_S200000x32_0_1
        (broadcastInDim S1x32 ![1] Cert.ReferenceIdeal.Facts₀.bcast_S32_S1x32_1 bl)))
      (Host.dotGeneral dot_S200000x64_S64x32_S200000x32_1_0_0_1_n_n none X Wr))
    (broadcastInDim S200000x32 ![] bcast_S_S200000x32 (constant (F := Ideal) S_ .f32 0x00000000#32))

/-- The reference's third layer on whole arrays: 32 features to 20. -/
def lin3 (A X : FVec Ideal S200000x32 .f32) (Wl : FVec Ideal S32x20 .f32) (bl : FVec Ideal S20 .f32) (Wr : FVec Ideal S32x20 .f32) :
    FVec Ideal S200000x20 .f32 :=
  addf (addf (Host.dotGeneral dot_S200000x32_S32x20_S200000x20_1_0_0_1_n_n none A Wl)
      (broadcastInDim S200000x20 ![0, 1] Cert.ReferenceIdeal.Facts₀.bcast_S1x20_S200000x20_0_1
        (broadcastInDim S1x20 ![1] Cert.ReferenceIdeal.Facts₀.bcast_S20_S1x20_1 bl)))
    (Host.dotGeneral dot_S200000x32_S32x20_S200000x20_1_0_0_1_n_n none X Wr)

end Reference

/-- The whole network as one function of the argument arrays. -/
def net (x : FVec Ideal S200000x128 .f32) (e : Edges) (Wl1 : FVec Ideal S128x64 .f32) (bl1 : FVec Ideal S64 .f32) (Wr1 : FVec Ideal S128x64 .f32)
    (Wl2 : FVec Ideal S64x32 .f32) (bl2 : FVec Ideal S32 .f32) (Wr2 : FVec Ideal S64x32 .f32)
    (Wl3 : FVec Ideal S32x20 .f32) (bl3 : FVec Ideal S20 .f32) (Wr3 : FVec Ideal S32x20 .f32) : FVec Ideal S200000x20 .f32 :=
  let h1 := lin1 (agg128 x (src e) (dst e) (invDeg (dst e))) x Wl1 bl1 Wr1
  let h2 := lin2 (agg64 h1 (src e) (dst e) (invDeg (dst e))) h1 Wl2 bl2 Wr2
  lin3 (agg32 h2 (src e) (dst e) (invDeg (dst e))) h2 Wl3 bl3 Wr3

end Cert.Stages

end
-- ==== Proof.LibSageLayer.lean ====
/-
  One dense graph-convolution layer read at one entry, at the ideal values (extended reals, every operation exact; a
  change of float format is the identity).

  `dense A X Wl Wr b p j` is entry (p, j) of `A Wl + X Wr + b`: the two sums over the contracted coordinate of the
  products, added, plus the bias entry. `kernel_layer_apply`: the two products, each of format-narrowed operands and
  accumulated into a zero splat, added, plus a [1, N] bias row laid along every row, is `dense`. `host_layer_apply`: the
  first product plus the bias vector (laid as one row, then along every row), plus the second product, is `dense` too —
  addition of extended reals is commutative and associative, so the bias may be added before or after the second
  product. `relu_host_apply`, `relu_kernel_apply`: the maximum with a zero (a scalar constant broadcast, or a splat of
  the zero word), read at an entry, is `max · 0`. `rowcast_apply`: a vector cast to a one-row matrix reads, at (0, j),
  the vector at j.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

noncomputable section

open scoped BigOperators

namespace Cert.Sage

open Idealize.ShloMosaic Idealize.ShloMosaic.ValueIdx Idealize.ShloMosaic.StackMember

/-- Entry (p, j) of `A Wl + X Wr + b`. -/
def dense {R K N : Nat} (A X : (⟨2, ![R, K]⟩ : Shape).Idx → EReal) (Wl Wr : (⟨2, ![K, N]⟩ : Shape).Idx → EReal) (b : Fin N → EReal) (p : Fin R) (j : Fin N) : EReal :=
  (∑ k : Fin K, A (ix2 p k) * Wl (ix2 k j) + ∑ k : Fin K, X (ix2 p k) * Wr (ix2 k j)) + b j

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- The kernel's layer: the two products of format-narrowed operands into zero accumulators, added, plus the bias row
    laid along every row. The dimension numbers are any record equal to the plain ones. -/
theorem kernel_layer_apply {R K N : Nat} (D : DotDims ⟨2, ![R, K]⟩ ⟨2, ![K, N]⟩ ⟨2, ![R, N]⟩) (hD : D = DotDims.plain R K N)
    (a x : FVec Ideal ⟨2, ![R, K]⟩ .f32) (wl wr : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![R, N]⟩) (p : Fin R) (j : Fin N) :
    addf (addf (matmul D none (truncf .bf16 a ht) (truncf .bf16 wl ht) (constant ⟨2, ![R, N]⟩ .f32 0x00000000#32))
               (matmul D none (truncf .bf16 x ht) (truncf .bf16 wr ht) (constant ⟨2, ![R, N]⟩ .f32 0x00000000#32)))
         (broadcastTo ⟨2, ![R, N]⟩ b hb) (ix2 p j)
      = dense a x wl wr (fun j => b (ix2 (0 : Fin 1) j)) p j := by
  subst hD
  rw [addf_apply, addf_apply, broadcastTo_1b_ab_apply, matmul0_apply, matmul0_apply]
  rfl

/-- The host's layer: the first product plus the bias (a vector laid as one row, the row laid along every row), plus
    the second product. The bias is added before the second product here and after it in `dense`; the two sums agree. -/
theorem host_layer_apply {R K N : Nat} (D : DotDims ⟨2, ![R, K]⟩ ⟨2, ![K, N]⟩ ⟨2, ![R, N]⟩) (hD : D = DotDims.plain R K N)
    (A X : FVec Ideal ⟨2, ![R, K]⟩ .f32) (Wl Wr : FVec Ideal ⟨2, ![K, N]⟩ .f32) (bl : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (j : Fin N) :
    addf (addf (Host.dotGeneral D none A Wl) (broadcastInDim ⟨2, ![R, N]⟩ ![0, 1] h2 (broadcastInDim ⟨2, ![1, N]⟩ ![1] h1 bl)))
         (Host.dotGeneral D none X Wr) (ix2 p j)
      = dense A X Wl Wr (fun j => bl (ix1 j)) p j := by
  subst hD
  rw [addf_apply, addf_apply, broadcastInDim_oneRow_apply, broadcastInDim_vecRow_apply, dotGeneral_plain_apply,
    dotGeneral_plain_apply]
  unfold dense
  exact add_right_comm _ _ _

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A vector cast to a one-row matrix reads, at (0, j), the vector at j. -/
theorem rowcast_apply {α : Type} {N : Nat} (bl : (⟨1, ![N]⟩ : Shape).Idx → α) (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

end Cert.Sage

end
-- ==== Proof.Region0.lean ====
/-
  Region 0 of the idealized kernel program, read as a value. The region is a grid of 50 points; point t stages rows
  4000 t … 4000 t + 3999 of the aggregated features and of the node features, the two weight matrices and the bias row
  whole, and writes back the same rows of the result. Entry (p, j) of what a point stores is the dense layer's entry of
  the staged rows: the sum over the contracted coordinate of aggregated feature times left weight, plus the same sum of
  node feature times right weight, plus the bias entry, cut off below at zero. A row of a block is a row of the array, so every point
  writes a block of ONE function of the arrays as the region finds them, the 50 blocks tile the result array, and the
  array ends holding that function.
-/
import proofs.«149559_j69475390980569_1_alg».proof.Proof.Gen.KernelIdeal.Frame
import proofs.«149559_j69475390980569_1_alg».proof.Proof.LibSageLayer
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What one point stores, at entry (p, j): the dense layer's entry of the staged blocks. -/
theorem pay_apply (x0 x1 : Vec Ideal S4000x128 .f32) (x2 x4 : Vec Ideal S128x64 .f32) (x3 : Vec Ideal S1x64 .f32)
    (p : Fin 4000) (j : Fin 64) :
    k0_pay1 x0 x1 x2 x4 x3 (ix2 p j) = max (Sage.dense x0 x1 x2 x4 (fun j => x3 (ix2 (0 : Fin 1) j)) p j) 0 := by
  unfold k0_pay1
  simp only [shapeCast_self]
  refine (Sage.relu_kernel_apply _ _).trans ?_
  exact congrArg (max · 0) (Sage.kernel_layer_apply _ rfl x0 x1 x2 x4 x3 _ _ p j)

/-- The printed index maps over the grid: the row-blocked windows sit at block (t, 0), the whole-array windows at
    block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem hN : cfg0.N = 50 := N_0

/-- Row p of point t's block is row 4000 t + p of the array. -/
def row (t : Fin cfg0.N) (p : Fin 4000) : Fin 200000 :=
  ⟨4000 * t.val + p.val, by have := t.isLt; have h := hN; have := p.isLt; omega⟩

/-- The aggregated features' block at a point, by entries. -/
theorem blkA (c : Dev nD) (t : Fin cfg0.N) (p : Fin 4000) (q : Fin 128) :
    (iblk0 V c 0 t : Vec Ideal S4000x128 .f32) (ix2 p q) = (V c main_v27 : S200000x128.Idx → EReal) (ix2 (row t p) q) := by
  obtain ⟨e0, e1, -⟩ := idx_facts t
  unfold iblk0
  rw [View.read_apply]
  show V c main_v27 _ = V c main_v27 _
  refine congrArg (V c main_v27) ?_
  funext a
  apply Fin.ext
  match a with
  | ⟨0, _⟩ => show win0_0.index t (0 : Fin 2) * 4000 + 1 * p.val = 4000 * t.val + p.val; rw [e0]; omega
  | ⟨1, _⟩ => show win0_0.index t (1 : Fin 2) * 128 + 1 * q.val = q.val; rw [e1]; omega

/-- The node features' block at a point, by entries. -/
theorem blkX (c : Dev nD) (t : Fin cfg0.N) (p : Fin 4000) (q : Fin 128) :
    (iblk0 V c 1 t : Vec Ideal S4000x128 .f32) (ix2 p q) = (V c main_arg0 : S200000x128.Idx → EReal) (ix2 (row t p) q) := by
  obtain ⟨-, -, e0, e1, -⟩ := idx_facts t
  unfold iblk0
  rw [View.read_apply]
  show V c main_arg0 _ = V c main_arg0 _
  refine congrArg (V c main_arg0) ?_
  funext a
  apply Fin.ext
  match a with
  | ⟨0, _⟩ => show win0_1.index t (0 : Fin 2) * 4000 + 1 * p.val = 4000 * t.val + p.val; rw [e0]; omega
  | ⟨1, _⟩ => show win0_1.index t (1 : Fin 2) * 128 + 1 * q.val = q.val; rw [e1]; omega

/-- The left weights' block at a point is the whole matrix. -/
theorem blkWl (c : Dev nD) (t : Fin cfg0.N) (y : S128x64.Idx) :
    (iblk0 V c 2 t : Vec Ideal S128x64 .f32) y = (V c main_arg2 : S128x64.Idx → EReal) y := by
  obtain ⟨-, -, -, -, e0, e1, -⟩ := idx_facts t
  unfold iblk0
  rw [View.read_apply]
  show V c main_arg2 _ = V c main_arg2 _
  refine congrArg (V c main_arg2) ?_
  funext a
  apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- The bias row's block at a point is the whole row. -/
theorem blkB (c : Dev nD) (t : Fin cfg0.N) (y : S1x64.Idx) :
    (iblk0 V c 3 t : Vec Ideal S1x64 .f32) y = (V c main_v28 : S1x64.Idx → EReal) y := by
  obtain ⟨-, -, -, -, -, -, e0, e1, -⟩ := idx_facts t
  unfold iblk0
  rw [View.read_apply]
  show V c main_v28 _ = V c main_v28 _
  refine congrArg (V c main_v28) ?_
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The right weights' block at a point is the whole matrix. -/
theorem blkWr (c : Dev nD) (t : Fin cfg0.N) (y : S128x64.Idx) :
    (iblk0 V c 4 t : Vec Ideal S128x64 .f32) y = (V c main_arg4 : S128x64.Idx → EReal) y := by
  obtain ⟨-, -, -, -, -, -, -, -, e0, e1, -⟩ := idx_facts t
  unfold iblk0
  rw [View.read_apply]
  show V c main_arg4 _ = V c main_arg4 _
  refine congrArg (V c main_arg4) ?_
  funext a
  apply Fin.ext
  match a with
  | ⟨0, _⟩ => show win0_4.index t (0 : Fin 2) * 128 + 1 * (y 0).val = (y 0).val; rw [e0]; omega
  | ⟨1, _⟩ => show win0_4.index t (1 : Fin 2) * 64 + 1 * (y 1).val = (y 1).val; rw [e1]; omega

/-- The layer as one function of the arrays the region finds, entry by entry. -/
def G (A X : S200000x128.Idx → EReal) (Wl Wr : S128x64.Idx → EReal) (B : S1x64.Idx → EReal) : S200000x64.Idx → EReal :=
  fun i => max (Sage.dense A X Wl Wr (fun j => B (ix2 (0 : Fin 1) j)) (i 0) (i 1)) 0

/-- What point t writes back is block t of `G` of the arrays as the region finds them. -/
theorem flushed_eq (c : Dev nD) (t : Fin cfg0.N) :
    (dat0 V c).flushed 5 t = ((cfg0.win 5).blk t).view.read (Elt Ideal)
      (G (V c main_v27) (V c main_arg0) (V c main_arg2) (V c main_arg4) (V c main_v28)) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x64) hz, View.ld_unit_zero (S := S1x64) hz]
  obtain ⟨-, -, -, -, -, -, -, -, -, -, e0, e1⟩ := idx_facts t
  funext y
  obtain ⟨p, j, rfl⟩ : ∃ (p : Fin 4000) (j : Fin 64), y = ix2 p j := ⟨y 0, y 1, eq_ix2 y⟩
  rw [View.read_apply]
  have hemb : ((cfg0.win 5).blk t).view.emb (ix2 p j) = (ix2 (row t p) j : S200000x64.Idx) := by
    funext a
    apply Fin.ext
    match a with
    | ⟨0, _⟩ => show win0_5.index t (0 : Fin 2) * 4000 + 1 * p.val = 4000 * t.val + p.val; rw [e0]; omega
    | ⟨1, _⟩ => show win0_5.index t (1 : Fin 2) * 64 + 1 * j.val = j.val; rw [e1]; omega
  rw [hemb]
  show k0_pay1 (iblk0 V c 0 t) (iblk0 V c 1 t) (iblk0 V c 2 t) (iblk0 V c 4 t) (iblk0 V c 3 t) (ix2 p j) = _
  rw [pay_apply]
  show _ = max (Sage.dense (V c main_v27) (V c main_arg0) (V c main_arg2) (V c main_arg4) (fun j => V c main_v28 (ix2 (0 : Fin 1) j)) (row t p) j) 0
  unfold Sage.dense
  simp only [blkA, blkX, blkWl, blkWr, blkB]

/-- An index of the result array is in point t's block iff its row is one of the block's rows. -/
theorem mem_blk (t : Fin cfg0.N) (i : S200000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v29).slice (win0_5.rect t)).set ↔ _
  rw [View.set_slice_whole, Rect.mem_set_unit]
  exact Iff.rfl

/-- Every index of the result array is in some point's block: row r is in the block of point r / 4000. -/
theorem cover (i : S200000x64.Idx) : ∃ t : Fin cfg0.N, (cfg0.win 5).flush t = true ∧ i ∈ ((cfg0.win 5).blk t).view.set := by
  have hi0 : (i 0).val < 200000 := (i 0).isLt
  have hi1 : (i 1).val < 64 := (i 1).isLt
  let t : Fin cfg0.N := ⟨(i 0).val / 4000, by rw [hN]; omega⟩
  obtain ⟨-, -, -, -, -, -, -, -, -, -, e0, e1⟩ := idx_facts t
  have ht : t.val = (i 0).val / 4000 := rfl
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; rw [e0, ht]; omega
  | ⟨1, _⟩ => show win0_5.index t (1 : Fin 2) * 64 ≤ (i 1).val ∧ (i 1).val < win0_5.index t (1 : Fin 2) * 64 + 64; rw [e1]; omega

/-- The result array after the region: `G` of the arrays as the region finds them. -/
theorem final (c : Dev nD) : (dat0 V c).arrAt 5 cfg0.N
    = G (V c main_v27) (V c main_arg0) (V c main_arg2) (V c main_arg4) (V c main_v28) :=
  (dat0 V c).arrAt_eq_of_cover 5 _ (fun t _ => flushed_eq V c t) cover

end Cert.KernelIdeal.Region0

end
-- ==== Proof.Region1.lean ====
/-
  Region 1 of the idealized kernel program, read as a value. The region is a grid of 50 points; point t stages rows
  4000 t … 4000 t + 3999 of the aggregated features and of the node features, the two weight matrices and the bias row
  whole, and writes back the same rows of the result. Entry (p, j) of what a point stores is the dense layer's entry of
  the staged rows: the sum over the contracted coordinate of aggregated feature times left weight, plus the same sum of
  node feature times right weight, plus the bias entry, cut off below at zero. A row of a block is a row of the array, so every point
  writes a block of ONE function of the arrays as the region finds them, the 50 blocks tile the result array, and the
  array ends holding that function.
-/
import proofs.«149559_j69475390980569_1_alg».proof.Proof.Gen.KernelIdeal.Frame
import proofs.«149559_j69475390980569_1_alg».proof.Proof.LibSageLayer
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What one point stores, at entry (p, j): the dense layer's entry of the staged blocks. -/
theorem pay_apply (x0 x1 : Vec Ideal S4000x64 .f32) (x2 x4 : Vec Ideal S64x32 .f32) (x3 : Vec Ideal S1x32 .f32)
    (p : Fin 4000) (j : Fin 32) :
    k1_pay1 x0 x1 x2 x4 x3 (ix2 p j) = max (Sage.dense x0 x1 x2 x4 (fun j => x3 (ix2 (0 : Fin 1) j)) p j) 0 := by
  unfold k1_pay1
  simp only [shapeCast_self]
  refine (Sage.relu_kernel_apply _ _).trans ?_
  exact congrArg (max · 0) (Sage.kernel_layer_apply _ rfl x0 x1 x2 x4 x3 _ _ p j)

/-- The printed index maps over the grid: the row-blocked windows sit at block (t, 0), the whole-array windows at
    block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem hN : cfg1.N = 50 := N_1

/-- Row p of point t's block is row 4000 t + p of the array. -/
def row (t : Fin cfg1.N) (p : Fin 4000) : Fin 200000 :=
  ⟨4000 * t.val + p.val, by have := t.isLt; have h := hN; have := p.isLt; omega⟩

/-- The aggregated features' block at a point, by entries. -/
theorem blkA (c : Dev nD) (t : Fin cfg1.N) (p : Fin 4000) (q : Fin 64) :
    (iblk1 V c 0 t : Vec Ideal S4000x64 .f32) (ix2 p q) = (V c main_v42 : S200000x64.Idx → EReal) (ix2 (row t p) q) := by
  obtain ⟨e0, e1, -⟩ := idx_facts t
  unfold iblk1
  rw [View.read_apply]
  show V c main_v42 _ = V c main_v42 _
  refine congrArg (V c main_v42) ?_
  funext a
  apply Fin.ext
  match a with
  | ⟨0, _⟩ => show win1_0.index t (0 : Fin 2) * 4000 + 1 * p.val = 4000 * t.val + p.val; rw [e0]; omega
  | ⟨1, _⟩ => show win1_0.index t (1 : Fin 2) * 64 + 1 * q.val = q.val; rw [e1]; omega

/-- The node features' block at a point, by entries. -/
theorem blkX (c : Dev nD) (t : Fin cfg1.N) (p : Fin 4000) (q : Fin 64) :
    (iblk1 V c 1 t : Vec Ideal S4000x64 .f32) (ix2 p q) = (V c main_v29 : S200000x64.Idx → EReal) (ix2 (row t p) q) := by
  obtain ⟨-, -, e0, e1, -⟩ := idx_facts t
  unfold iblk1
  rw [View.read_apply]
  show V c main_v29 _ = V c main_v29 _
  refine congrArg (V c main_v29) ?_
  funext a
  apply Fin.ext
  match a with
  | ⟨0, _⟩ => show win1_1.index t (0 : Fin 2) * 4000 + 1 * p.val = 4000 * t.val + p.val; rw [e0]; omega
  | ⟨1, _⟩ => show win1_1.index t (1 : Fin 2) * 64 + 1 * q.val = q.val; rw [e1]; omega

/-- The left weights' block at a point is the whole matrix. -/
theorem blkWl (c : Dev nD) (t : Fin cfg1.N) (y : S64x32.Idx) :
    (iblk1 V c 2 t : Vec Ideal S64x32 .f32) y = (V c main_arg5 : S64x32.Idx → EReal) y := by
  obtain ⟨-, -, -, -, e0, e1, -⟩ := idx_facts t
  unfold iblk1
  rw [View.read_apply]
  show V c main_arg5 _ = V c main_arg5 _
  refine congrArg (V c main_arg5) ?_
  funext a
  apply Fin.ext
  match a with
  | ⟨0, _⟩ => show win1_2.index t (0 : Fin 2) * 64 + 1 * (y 0).val = (y 0).val; rw [e0]; omega
  | ⟨1, _⟩ => show win1_2.index t (1 : Fin 2) * 32 + 1 * (y 1).val = (y 1).val; rw [e1]; omega

/-- The bias row's block at a point is the whole row. -/
theorem blkB (c : Dev nD) (t : Fin cfg1.N) (y : S1x32.Idx) :
    (iblk1 V c 3 t : Vec Ideal S1x32 .f32) y = (V c main_v43 : S1x32.Idx → EReal) y := by
  obtain ⟨-, -, -, -, -, -, e0, e1, -⟩ := idx_facts t
  unfold iblk1
  rw [View.read_apply]
  show V c main_v43 _ = V c main_v43 _
  refine congrArg (V c main_v43) ?_
  funext a
  apply Fin.ext
  match a with
  | ⟨0, _⟩ => show win1_3.index t (0 : Fin 2) * 1 + 1 * (y 0).val = (y 0).val; rw [e0]; omega
  | ⟨1, _⟩ => show win1_3.index t (1 : Fin 2) * 32 + 1 * (y 1).val = (y 1).val; rw [e1]; omega

/-- The right weights' block at a point is the whole matrix. -/
theorem blkWr (c : Dev nD) (t : Fin cfg1.N) (y : S64x32.Idx) :
    (iblk1 V c 4 t : Vec Ideal S64x32 .f32) y = (V c main_arg7 : S64x32.Idx → EReal) y := by
  obtain ⟨-, -, -, -, -, -, -, -, e0, e1, -⟩ := idx_facts t
  unfold iblk1
  rw [View.read_apply]
  show V c main_arg7 _ = V c main_arg7 _
  refine congrArg (V c main_arg7) ?_
  funext a
  apply Fin.ext
  match a with
  | ⟨0, _⟩ => show win1_4.index t (0 : Fin 2) * 64 + 1 * (y 0).val = (y 0).val; rw [e0]; omega
  | ⟨1, _⟩ => show win1_4.index t (1 : Fin 2) * 32 + 1 * (y 1).val = (y 1).val; rw [e1]; omega

/-- The layer as one function of the arrays the region finds, entry by entry. -/
def G (A X : S200000x64.Idx → EReal) (Wl Wr : S64x32.Idx → EReal) (B : S1x32.Idx → EReal) : S200000x32.Idx → EReal :=
  fun i => max (Sage.dense A X Wl Wr (fun j => B (ix2 (0 : Fin 1) j)) (i 0) (i 1)) 0

/-- What point t writes back is block t of `G` of the arrays as the region finds them. -/
theorem flushed_eq (c : Dev nD) (t : Fin cfg1.N) :
    (dat1 V c).flushed 5 t = ((cfg1.win 5).blk t).view.read (Elt Ideal)
      (G (V c main_v42) (V c main_v29) (V c main_arg5) (V c main_arg7) (V c main_v43)) := by
  show (cfg1.win 5).cut (grid1.coords t) ((dat1 V c).after 5 t) = _
  rw [after1_5]
  unfold out1_5
  rw [View.canon_unit_zero hz]
  simp only [View.ld_unit_zero (S := S4000x64) hz, View.ld_unit_zero (S := S64x32) hz, View.ld_unit_zero (S := S1x32) hz]
  obtain ⟨-, -, -, -, -, -, -, -, -, -, e0, e1⟩ := idx_facts t
  funext y
  obtain ⟨p, j, rfl⟩ : ∃ (p : Fin 4000) (j : Fin 32), y = ix2 p j := ⟨y 0, y 1, eq_ix2 y⟩
  rw [View.read_apply]
  have hemb : ((cfg1.win 5).blk t).view.emb (ix2 p j) = (ix2 (row t p) j : S200000x32.Idx) := by
    funext a
    apply Fin.ext
    match a with
    | ⟨0, _⟩ => show win1_5.index t (0 : Fin 2) * 4000 + 1 * p.val = 4000 * t.val + p.val; rw [e0]; omega
    | ⟨1, _⟩ => show win1_5.index t (1 : Fin 2) * 32 + 1 * j.val = j.val; rw [e1]; omega
  rw [hemb]
  show k1_pay1 (iblk1 V c 0 t) (iblk1 V c 1 t) (iblk1 V c 2 t) (iblk1 V c 4 t) (iblk1 V c 3 t) (ix2 p j) = _
  rw [pay_apply]
  show _ = max (Sage.dense (V c main_v42) (V c main_v29) (V c main_arg5) (V c main_arg7) (fun j => V c main_v43 (ix2 (0 : Fin 1) j)) (row t p) j) 0
  unfold Sage.dense
  simp only [blkA, blkX, blkWl, blkWr, blkB]

/-- An index of the result array is in point t's block iff its row is one of the block's rows. -/
theorem mem_blk (t : Fin cfg1.N) (i : S200000x32.Idx) :
    i ∈ ((cfg1.win 5).blk t).view.set ↔ ∀ a : Fin 2, win1_5.index t a * S4000x32.size a ≤ (i a).val ∧ (i a).val < win1_5.index t a * S4000x32.size a + S4000x32.size a := by
  show i ∈ ((View.whole main_v44).slice (win1_5.rect t)).set ↔ _
  rw [View.set_slice_whole, Rect.mem_set_unit]
  exact Iff.rfl

/-- Every index of the result array is in some point's block: row r is in the block of point r / 4000. -/
theorem cover (i : S200000x32.Idx) : ∃ t : Fin cfg1.N, (cfg1.win 5).flush t = true ∧ i ∈ ((cfg1.win 5).blk t).view.set := by
  have hi0 : (i 0).val < 200000 := (i 0).isLt
  have hi1 : (i 1).val < 32 := (i 1).isLt
  let t : Fin cfg1.N := ⟨(i 0).val / 4000, by rw [hN]; omega⟩
  obtain ⟨-, -, -, -, -, -, -, -, -, -, e0, e1⟩ := idx_facts t
  have ht : t.val = (i 0).val / 4000 := rfl
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; rw [e0, ht]; omega
  | ⟨1, _⟩ => show win1_5.index t (1 : Fin 2) * 32 ≤ (i 1).val ∧ (i 1).val < win1_5.index t (1 : Fin 2) * 32 + 32; rw [e1]; omega

/-- The result array after the region: `G` of the arrays as the region finds them. -/
theorem final (c : Dev nD) : (dat1 V c).arrAt 5 cfg1.N
    = G (V c main_v42) (V c main_v29) (V c main_arg5) (V c main_arg7) (V c main_v43) :=
  (dat1 V c).arrAt_eq_of_cover 5 _ (fun t _ => flushed_eq V c t) cover

end Cert.KernelIdeal.Region1

end
-- ==== Proof.Region2.lean ====
/-
  Region 2 of the idealized kernel program, read as a value. The region is a grid of 50 points; point t stages rows
  4000 t … 4000 t + 3999 of the aggregated features and of the node features, the two weight matrices and the bias row
  whole, and writes back the same rows of the result. Entry (p, j) of what a point stores is the dense layer's entry of
  the staged rows: the sum over the contracted coordinate of aggregated feature times left weight, plus the same sum of
  node feature times right weight, plus the bias entry. A row of a block is a row of the array, so every point
  writes a block of ONE function of the arrays as the region finds them, the 50 blocks tile the result array, and the
  array ends holding that function.
-/
import proofs.«149559_j69475390980569_1_alg».proof.Proof.Gen.KernelIdeal.Frame
import proofs.«149559_j69475390980569_1_alg».proof.Proof.LibSageLayer
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What one point stores, at entry (p, j): the dense layer's entry of the staged blocks. -/
theorem pay_apply (x0 x1 : Vec Ideal S4000x32 .f32) (x2 x4 : Vec Ideal S32x20 .f32) (x3 : Vec Ideal S1x20 .f32)
    (p : Fin 4000) (j : Fin 20) :
    k2_pay1 x0 x1 x2 x4 x3 (ix2 p j) = Sage.dense x0 x1 x2 x4 (fun j => x3 (ix2 (0 : Fin 1) j)) p j := by
  unfold k2_pay1
  simp only [shapeCast_self]
  exact Sage.kernel_layer_apply _ rfl x0 x1 x2 x4 x3 _ _ p j

/-- The printed index maps over the grid: the row-blocked windows sit at block (t, 0), the whole-array windows at
    block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem hN : cfg2.N = 50 := N_2

/-- Row p of point t's block is row 4000 t + p of the array. -/
def row (t : Fin cfg2.N) (p : Fin 4000) : Fin 200000 :=
  ⟨4000 * t.val + p.val, by have := t.isLt; have h := hN; have := p.isLt; omega⟩

/-- The aggregated features' block at a point, by entries. -/
theorem blkA (c : Dev nD) (t : Fin cfg2.N) (p : Fin 4000) (q : Fin 32) :
    (iblk2 V c 0 t : Vec Ideal S4000x32 .f32) (ix2 p q) = (V c main_v57 : S200000x32.Idx → EReal) (ix2 (row t p) q) := by
  obtain ⟨e0, e1, -⟩ := idx_facts t
  unfold iblk2
  rw [View.read_apply]
  show V c main_v57 _ = V c main_v57 _
  refine congrArg (V c main_v57) ?_
  funext a
  apply Fin.ext
  match a with
  | ⟨0, _⟩ => show win2_0.index t (0 : Fin 2) * 4000 + 1 * p.val = 4000 * t.val + p.val; rw [e0]; omega
  | ⟨1, _⟩ => show win2_0.index t (1 : Fin 2) * 32 + 1 * q.val = q.val; rw [e1]; omega

/-- The node features' block at a point, by entries. -/
theorem blkX (c : Dev nD) (t : Fin cfg2.N) (p : Fin 4000) (q : Fin 32) :
    (iblk2 V c 1 t : Vec Ideal S4000x32 .f32) (ix2 p q) = (V c main_v44 : S200000x32.Idx → EReal) (ix2 (row t p) q) := by
  obtain ⟨-, -, e0, e1, -⟩ := idx_facts t
  unfold iblk2
  rw [View.read_apply]
  show V c main_v44 _ = V c main_v44 _
  refine congrArg (V c main_v44) ?_
  funext a
  apply Fin.ext
  match a with
  | ⟨0, _⟩ => show win2_1.index t (0 : Fin 2) * 4000 + 1 * p.val = 4000 * t.val + p.val; rw [e0]; omega
  | ⟨1, _⟩ => show win2_1.index t (1 : Fin 2) * 32 + 1 * q.val = q.val; rw [e1]; omega

/-- The left weights' block at a point is the whole matrix. -/
theorem blkWl (c : Dev nD) (t : Fin cfg2.N) (y : S32x20.Idx) :
    (iblk2 V c 2 t : Vec Ideal S32x20 .f32) y = (V c main_arg8 : S32x20.Idx → EReal) y := by
  obtain ⟨-, -, -, -, e0, e1, -⟩ := idx_facts t
  unfold iblk2
  rw [View.read_apply]
  show V c main_arg8 _ = V c main_arg8 _
  refine congrArg (V c main_arg8) ?_
  funext a
  apply Fin.ext
  match a with
  | ⟨0, _⟩ => show win2_2.index t (0 : Fin 2) * 32 + 1 * (y 0).val = (y 0).val; rw [e0]; omega
  | ⟨1, _⟩ => show win2_2.index t (1 : Fin 2) * 20 + 1 * (y 1).val = (y 1).val; rw [e1]; omega

/-- The bias row's block at a point is the whole row. -/
theorem blkB (c : Dev nD) (t : Fin cfg2.N) (y : S1x20.Idx) :
    (iblk2 V c 3 t : Vec Ideal S1x20 .f32) y = (V c main_v58 : S1x20.Idx → EReal) y := by
  obtain ⟨-, -, -, -, -, -, e0, e1, -⟩ := idx_facts t
  unfold iblk2
  rw [View.read_apply]
  show V c main_v58 _ = V c main_v58 _
  refine congrArg (V c main_v58) ?_
  funext a
  apply Fin.ext
  match a with
  | ⟨0, _⟩ => show win2_3.index t (0 : Fin 2) * 1 + 1 * (y 0).val = (y 0).val; rw [e0]; omega
  | ⟨1, _⟩ => show win2_3.index t (1 : Fin 2) * 20 + 1 * (y 1).val = (y 1).val; rw [e1]; omega

/-- The right weights' block at a point is the whole matrix. -/
theorem blkWr (c : Dev nD) (t : Fin cfg2.N) (y : S32x20.Idx) :
    (iblk2 V c 4 t : Vec Ideal S32x20 .f32) y = (V c main_arg10 : S32x20.Idx → EReal) y := by
  obtain ⟨-, -, -, -, -, -, -, -, e0, e1, -⟩ := idx_facts t
  unfold iblk2
  rw [View.read_apply]
  show V c main_arg10 _ = V c main_arg10 _
  refine congrArg (V c main_arg10) ?_
  funext a
  apply Fin.ext
  match a with
  | ⟨0, _⟩ => show win2_4.index t (0 : Fin 2) * 32 + 1 * (y 0).val = (y 0).val; rw [e0]; omega
  | ⟨1, _⟩ => show win2_4.index t (1 : Fin 2) * 20 + 1 * (y 1).val = (y 1).val; rw [e1]; omega

/-- The layer as one function of the arrays the region finds, entry by entry. -/
def G (A X : S200000x32.Idx → EReal) (Wl Wr : S32x20.Idx → EReal) (B : S1x20.Idx → EReal) : S200000x20.Idx → EReal :=
  fun i => Sage.dense A X Wl Wr (fun j => B (ix2 (0 : Fin 1) j)) (i 0) (i 1)

/-- What point t writes back is block t of `G` of the arrays as the region finds them. -/
theorem flushed_eq (c : Dev nD) (t : Fin cfg2.N) :
    (dat2 V c).flushed 5 t = ((cfg2.win 5).blk t).view.read (Elt Ideal)
      (G (V c main_v57) (V c main_v44) (V c main_arg8) (V c main_arg10) (V c main_v58)) := by
  show (cfg2.win 5).cut (grid2.coords t) ((dat2 V c).after 5 t) = _
  rw [after2_5]
  unfold out2_5
  rw [View.canon_unit_zero hz]
  simp only [View.ld_unit_zero (S := S4000x32) hz, View.ld_unit_zero (S := S32x20) hz, View.ld_unit_zero (S := S1x20) hz]
  obtain ⟨-, -, -, -, -, -, -, -, -, -, e0, e1⟩ := idx_facts t
  funext y
  obtain ⟨p, j, rfl⟩ : ∃ (p : Fin 4000) (j : Fin 20), y = ix2 p j := ⟨y 0, y 1, eq_ix2 y⟩
  rw [View.read_apply]
  have hemb : ((cfg2.win 5).blk t).view.emb (ix2 p j) = (ix2 (row t p) j : S200000x20.Idx) := by
    funext a
    apply Fin.ext
    match a with
    | ⟨0, _⟩ => show win2_5.index t (0 : Fin 2) * 4000 + 1 * p.val = 4000 * t.val + p.val; rw [e0]; omega
    | ⟨1, _⟩ => show win2_5.index t (1 : Fin 2) * 20 + 1 * j.val = j.val; rw [e1]; omega
  rw [hemb]
  show k2_pay1 (iblk2 V c 0 t) (iblk2 V c 1 t) (iblk2 V c 2 t) (iblk2 V c 4 t) (iblk2 V c 3 t) (ix2 p j) = _
  rw [pay_apply]
  show _ = Sage.dense (V c main_v57) (V c main_v44) (V c main_arg8) (V c main_arg10) (fun j => V c main_v58 (ix2 (0 : Fin 1) j)) (row t p) j
  unfold Sage.dense
  simp only [blkA, blkX, blkWl, blkWr, blkB]

/-- An index of the result array is in point t's block iff its row is one of the block's rows. -/
theorem mem_blk (t : Fin cfg2.N) (i : S200000x20.Idx) :
    i ∈ ((cfg2.win 5).blk t).view.set ↔ ∀ a : Fin 2, win2_5.index t a * S4000x20.size a ≤ (i a).val ∧ (i a).val < win2_5.index t a * S4000x20.size a + S4000x20.size a := by
  show i ∈ ((View.whole main_v59).slice (win2_5.rect t)).set ↔ _
  rw [View.set_slice_whole, Rect.mem_set_unit]
  exact Iff.rfl

/-- Every index of the result array is in some point's block: row r is in the block of point r / 4000. -/
theorem cover (i : S200000x20.Idx) : ∃ t : Fin cfg2.N, (cfg2.win 5).flush t = true ∧ i ∈ ((cfg2.win 5).blk t).view.set := by
  have hi0 : (i 0).val < 200000 := (i 0).isLt
  have hi1 : (i 1).val < 20 := (i 1).isLt
  let t : Fin cfg2.N := ⟨(i 0).val / 4000, by rw [hN]; omega⟩
  obtain ⟨-, -, -, -, -, -, -, -, -, -, e0, e1⟩ := idx_facts t
  have ht : t.val = (i 0).val / 4000 := rfl
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; rw [e0, ht]; omega
  | ⟨1, _⟩ => show win2_5.index t (1 : Fin 2) * 20 ≤ (i 1).val ∧ (i 1).val < win2_5.index t (1 : Fin 2) * 20 + 20; rw [e1]; omega

/-- The result array after the region: `G` of the arrays as the region finds them. -/
theorem final (c : Dev nD) : (dat2 V c).arrAt 5 cfg2.N
    = G (V c main_v57) (V c main_v44) (V c main_arg8) (V c main_arg10) (V c main_v58) :=
  (dat2 V c).arrAt_eq_of_cover 5 _ (fun t _ => flushed_eq V c t) cover

end Cert.KernelIdeal.Region2

end
-- ==== Proof.Bridge.lean ====
/-
  The dense layer two ways. The kernel's regions leave, in their result arrays, the layer entry by entry with the bias
  added last; the reference computes it on whole arrays with the bias added between the two products. On the extended
  reals addition is commutative and associative, so the two agree at every entry, whatever the arrays hold.
-/
import proofs.«149559_j69475390980569_1_alg».proof.Proof.Stages
import proofs.«149559_j69475390980569_1_alg».proof.Proof.LibSageLayer
import proofs.«149559_j69475390980569_1_alg».proof.Proof.Region0
import proofs.«149559_j69475390980569_1_alg».proof.Proof.Region1
import proofs.«149559_j69475390980569_1_alg».proof.Proof.Region2

noncomputable section

namespace Cert.Bridge

open Idealize.ShloMosaic Idealize.ShloMosaic.ValueIdx
open Cert.KernelIdeal Cert.KernelIdeal.Facts₀ Cert.KernelIdeal.Facts Cert.Stages

/-- Layer 1: the function the kernel's region leaves in its result array, at a bias row that is the bias vector cast
    to one row, is the reference's layer on whole arrays. Entry by entry both are the two sums over the contracted
    coordinate plus the bias entry, cut off below at zero; the reference adds the bias before the second sum, the kernel after it. -/
theorem G0_eq_lin1 (A X : FVec Ideal S200000x128 .f32) (Wl Wr : FVec Ideal S128x64 .f32) (bl : FVec Ideal S64 .f32) :
    Cert.KernelIdeal.Region0.G A X Wl Wr (shapeCast S1x64 bl shapeCasts_S64_S1x64) = lin1 A X Wl bl Wr := by
  funext i
  obtain ⟨p, j, rfl⟩ : ∃ (p : Fin 200000) (j : Fin 64), i = ix2 p j := ⟨i 0, i 1, eq_ix2 i⟩
  unfold Cert.KernelIdeal.Region0.G lin1
  refine Eq.trans ?_ (Cert.Sage.relu_host_apply _ _ _).symm
  refine congrArg (max · 0) ?_
  refine Eq.trans ?_ (Cert.Sage.host_layer_apply _ rfl A X Wl Wr bl _ _ p j).symm
  show Cert.Sage.dense A X Wl Wr (fun j => shapeCast S1x64 bl shapeCasts_S64_S1x64 (ix2 (0 : Fin 1) j)) p j = _
  simp only [Cert.Sage.rowcast_apply]

/-- Layer 2: the function the kernel's region leaves in its result array, at a bias row that is the bias vector cast
    to one row, is the reference's layer on whole arrays. Entry by entry both are the two sums over the contracted
    coordinate plus the bias entry, cut off below at zero; the reference adds the bias before the second sum, the kernel after it. -/
theorem G1_eq_lin2 (A X : FVec Ideal S200000x64 .f32) (Wl Wr : FVec Ideal S64x32 .f32) (bl : FVec Ideal S32 .f32) :
    Cert.KernelIdeal.Region1.G A X Wl Wr (shapeCast S1x32 bl shapeCasts_S32_S1x32) = lin2 A X Wl bl Wr := by
  funext i
  obtain ⟨p, j, rfl⟩ : ∃ (p : Fin 200000) (j : Fin 32), i = ix2 p j := ⟨i 0, i 1, eq_ix2 i⟩
  unfold Cert.KernelIdeal.Region1.G lin2
  refine Eq.trans ?_ (Cert.Sage.relu_host_apply _ _ _).symm
  refine congrArg (max · 0) ?_
  refine Eq.trans ?_ (Cert.Sage.host_layer_apply _ rfl A X Wl Wr bl _ _ p j).symm
  show Cert.Sage.dense A X Wl Wr (fun j => shapeCast S1x32 bl shapeCasts_S32_S1x32 (ix2 (0 : Fin 1) j)) p j = _
  simp only [Cert.Sage.rowcast_apply]

/-- Layer 3: the function the kernel's region leaves in its result array, at a bias row that is the bias vector cast
    to one row, is the reference's layer on whole arrays. Entry by entry both are the two sums over the contracted
    coordinate plus the bias entry; the reference adds the bias before the second sum, the kernel after it. -/
theorem G2_eq_lin3 (A X : FVec Ideal S200000x32 .f32) (Wl Wr : FVec Ideal S32x20 .f32) (bl : FVec Ideal S20 .f32) :
    Cert.KernelIdeal.Region2.G A X Wl Wr (shapeCast S1x20 bl shapeCasts_S20_S1x20) = lin3 A X Wl bl Wr := by
  funext i
  obtain ⟨p, j, rfl⟩ : ∃ (p : Fin 200000) (j : Fin 20), i = ix2 p j := ⟨i 0, i 1, eq_ix2 i⟩
  unfold Cert.KernelIdeal.Region2.G lin3
  refine Eq.trans ?_ (Cert.Sage.host_layer_apply _ rfl A X Wl Wr bl _ _ p j).symm
  show Cert.Sage.dense A X Wl Wr (fun j => shapeCast S1x20 bl shapeCasts_S20_S1x20 (ix2 (0 : Fin 1) j)) p j = _
  simp only [Cert.Sage.rowcast_apply]

end Cert.Bridge

end
-- ==== Proof.KChain.lean ====
/-
  The idealized kernel program's buffers at each boundary of its run, read back to the argument arrays. Before the
  first region the host operations leave the edge rows, the reciprocal in-degree, the aggregated input features and the
  first bias as a row; each region leaves its layer of what it finds (the blocks-to-array reading of the region, then
  the layer two ways); each host stretch between regions aggregates the layer before it. At the end the result array
  holds the network of the argument arrays.
-/
import proofs.«149559_j69475390980569_1_alg».proof.Proof.Gen.KernelIdeal.Frame
import proofs.«149559_j69475390980569_1_alg».proof.Proof.Stages
import proofs.«149559_j69475390980569_1_alg».proof.Proof.Bridge
import Idealize.ShloMosaic.Lib.StableHlo.Run
import Idealize.ShloMosaic.Lib.Tactic
import Idealize.ShloMosaic.PureOps.Ideal

set_option maxRecDepth 16384

noncomputable section

namespace Cert.KernelIdeal.Chain

open Cert.KernelIdeal Cert.KernelIdeal.Gen Cert.Stages
open Cert.KernelIdeal.Facts₀ Cert.KernelIdeal.Facts
open Idealize.ShloMosaic Idealize.ShloMosaic.TcCoe Idealize.SL.Sem Idealize.ShloMosaic.StableHlo Idealize.ShloMosaic.Tactic

variable (m : (ℓ : Loc nD τ sig) → Buf (Elt Ideal) ℓ) (ρ : Dev nD → PrngReg) (c : Dev nD)

/-- The first layer's output, of the argument arrays. -/
abbrev h1 : FVec Ideal S200000x64 .f32 :=
  lin1 (agg128 (m ((c.tc : Thread nD τ).loc main_arg0)) (src (m ((c.tc : Thread nD τ).loc main_arg1))) (dst (m ((c.tc : Thread nD τ).loc main_arg1))) (invDeg (dst (m ((c.tc : Thread nD τ).loc main_arg1))))) (m ((c.tc : Thread nD τ).loc main_arg0)) (m ((c.tc : Thread nD τ).loc main_arg2)) (m ((c.tc : Thread nD τ).loc main_arg3)) (m ((c.tc : Thread nD τ).loc main_arg4))

/-- The second layer's output, of the argument arrays. -/
abbrev h2 : FVec Ideal S200000x32 .f32 :=
  lin2 (agg64 (h1 m c) (src (m ((c.tc : Thread nD τ).loc main_arg1))) (dst (m ((c.tc : Thread nD τ).loc main_arg1))) (invDeg (dst (m ((c.tc : Thread nD τ).loc main_arg1))))) (h1 m c) (m ((c.tc : Thread nD τ).loc main_arg5)) (m ((c.tc : Thread nD τ).loc main_arg6)) (m ((c.tc : Thread nD τ).loc main_arg7))

/-! ## Before the first region: the edge rows and the reciprocal in-degree -/

set_option maxHeartbeats 4000000 in
theorem W2_src : W2 m ρ c (Proc.devRef .tc main_v1) = src (m ((c.tc : Thread nD τ).loc main_arg1)) := by
  dsimp only [W2, W1, hostOps0, hostOps0_1]
  after_results_simp <;> rfl

set_option maxHeartbeats 4000000 in
theorem W2_dst : W2 m ρ c (Proc.devRef .tc main_v3) = dst (m ((c.tc : Thread nD τ).loc main_arg1)) := by
  dsimp only [W2, W1, hostOps0, hostOps0_1]
  after_results_simp <;> rfl

set_option maxHeartbeats 4000000 in
theorem W2_inv : W2 m ρ c (Proc.devRef .tc main_v14) = invDeg (dst (m ((c.tc : Thread nD τ).loc main_arg1))) := by
  dsimp only [W2, W1, hostOps0, hostOps0_1]
  after_results_simp
  sl_kernel_rfl

set_option maxHeartbeats 4000000 in
theorem W2_arg0 : W2 m ρ c (Proc.devRef .tc main_arg0) = m ((c.tc : Thread nD τ).loc main_arg0) := by
  dsimp only [W2, W1, hostOps0, hostOps0_1]
  after_results_simp <;> rfl

set_option maxHeartbeats 4000000 in
theorem W2_arg2 : W2 m ρ c (Proc.devRef .tc main_arg2) = m ((c.tc : Thread nD τ).loc main_arg2) := by
  dsimp only [W2, W1, hostOps0, hostOps0_1]
  after_results_simp <;> rfl

set_option maxHeartbeats 4000000 in
theorem W2_arg3 : W2 m ρ c (Proc.devRef .tc main_arg3) = m ((c.tc : Thread nD τ).loc main_arg3) := by
  dsimp only [W2, W1, hostOps0, hostOps0_1]
  after_results_simp <;> rfl

set_option maxHeartbeats 4000000 in
theorem W2_arg4 : W2 m ρ c (Proc.devRef .tc main_arg4) = m ((c.tc : Thread nD τ).loc main_arg4) := by
  dsimp only [W2, W1, hostOps0, hostOps0_1]
  after_results_simp <;> rfl

set_option maxHeartbeats 4000000 in
theorem W2_arg5 : W2 m ρ c (Proc.devRef .tc main_arg5) = m ((c.tc : Thread nD τ).loc main_arg5) := by
  dsimp only [W2, W1, hostOps0, hostOps0_1]
  after_results_simp <;> rfl

set_option maxHeartbeats 4000000 in
theorem W2_arg6 : W2 m ρ c (Proc.devRef .tc main_arg6) = m ((c.tc : Thread nD τ).loc main_arg6) := by
  dsimp only [W2, W1, hostOps0, hostOps0_1]
  after_results_simp <;> rfl

set_option maxHeartbeats 4000000 in
theorem W2_arg7 : W2 m ρ c (Proc.devRef .tc main_arg7) = m ((c.tc : Thread nD τ).loc main_arg7) := by
  dsimp only [W2, W1, hostOps0, hostOps0_1]
  after_results_simp <;> rfl

set_option maxHeartbeats 4000000 in
theorem W2_arg8 : W2 m ρ c (Proc.devRef .tc main_arg8) = m ((c.tc : Thread nD τ).loc main_arg8) := by
  dsimp only [W2, W1, hostOps0, hostOps0_1]
  after_results_simp <;> rfl

set_option maxHeartbeats 4000000 in
theorem W2_arg9 : W2 m ρ c (Proc.devRef .tc main_arg9) = m ((c.tc : Thread nD τ).loc main_arg9) := by
  dsimp only [W2, W1, hostOps0, hostOps0_1]
  after_results_simp <;> rfl

set_option maxHeartbeats 4000000 in
theorem W2_arg10 : W2 m ρ c (Proc.devRef .tc main_arg10) = m ((c.tc : Thread nD τ).loc main_arg10) := by
  dsimp only [W2, W1, hostOps0, hostOps0_1]
  after_results_simp <;> rfl

/-! ## The later host stretches, from any contents

Each stretch of host operations read at the buffers the next region stages, as functions of what the stretch finds in
the buffers it reads; every other buffer the proof follows is left as found. -/

section Stretches
variable (V : Valuation τ sig (Elt Ideal))

set_option maxHeartbeats 4000000 in
theorem S02_agg : StableHlo.after hostOps0_2 V (Proc.devRef .tc main_v27)
    = agg128 (V (Proc.devRef .tc main_arg0)) (V (Proc.devRef .tc main_v1)) (V (Proc.devRef .tc main_v3)) (V (Proc.devRef .tc main_v14)) := by
  dsimp only [hostOps0_2]
  after_results_simp <;> rfl

set_option maxHeartbeats 4000000 in
theorem S02_b : StableHlo.after hostOps0_2 V (Proc.devRef .tc main_v28)
    = shapeCast S1x64 (V (Proc.devRef .tc main_arg3)) Facts₀.shapeCasts_S64_S1x64 := by
  dsimp only [hostOps0_2]
  after_results_simp <;> rfl

set_option maxHeartbeats 4000000 in
theorem S02_keep_main_v1 : StableHlo.after hostOps0_2 V (Proc.devRef .tc main_v1) = V (Proc.devRef .tc main_v1) := by
  dsimp only [hostOps0_2]
  after_results_simp <;> rfl
set_option maxHeartbeats 4000000 in
theorem S02_keep_main_v3 : StableHlo.after hostOps0_2 V (Proc.devRef .tc main_v3) = V (Proc.devRef .tc main_v3) := by
  dsimp only [hostOps0_2]
  after_results_simp <;> rfl
set_option maxHeartbeats 4000000 in
theorem S02_keep_main_v14 : StableHlo.after hostOps0_2 V (Proc.devRef .tc main_v14) = V (Proc.devRef .tc main_v14) := by
  dsimp only [hostOps0_2]
  after_results_simp <;> rfl
set_option maxHeartbeats 4000000 in
theorem S02_keep_main_arg0 : StableHlo.after hostOps0_2 V (Proc.devRef .tc main_arg0) = V (Proc.devRef .tc main_arg0) := by
  dsimp only [hostOps0_2]
  after_results_simp <;> rfl
set_option maxHeartbeats 4000000 in
theorem S02_keep_main_arg2 : StableHlo.after hostOps0_2 V (Proc.devRef .tc main_arg2) = V (Proc.devRef .tc main_arg2) := by
  dsimp only [hostOps0_2]
  after_results_simp <;> rfl
set_option maxHeartbeats 4000000 in
theorem S02_keep_main_arg4 : StableHlo.after hostOps0_2 V (Proc.devRef .tc main_arg4) = V (Proc.devRef .tc main_arg4) := by
  dsimp only [hostOps0_2]
  after_results_simp <;> rfl
set_option maxHeartbeats 4000000 in
theorem S02_keep_main_arg5 : StableHlo.after hostOps0_2 V (Proc.devRef .tc main_arg5) = V (Proc.devRef .tc main_arg5) := by
  dsimp only [hostOps0_2]
  after_results_simp <;> rfl
set_option maxHeartbeats 4000000 in
theorem S02_keep_main_arg6 : StableHlo.after hostOps0_2 V (Proc.devRef .tc main_arg6) = V (Proc.devRef .tc main_arg6) := by
  dsimp only [hostOps0_2]
  after_results_simp <;> rfl
set_option maxHeartbeats 4000000 in
theorem S02_keep_main_arg7 : StableHlo.after hostOps0_2 V (Proc.devRef .tc main_arg7) = V (Proc.devRef .tc main_arg7) := by
  dsimp only [hostOps0_2]
  after_results_simp <;> rfl
set_option maxHeartbeats 4000000 in
theorem S02_keep_main_arg8 : StableHlo.after hostOps0_2 V (Proc.devRef .tc main_arg8) = V (Proc.devRef .tc main_arg8) := by
  dsimp only [hostOps0_2]
  after_results_simp <;> rfl
set_option maxHeartbeats 4000000 in
theorem S02_keep_main_arg9 : StableHlo.after hostOps0_2 V (Proc.devRef .tc main_arg9) = V (Proc.devRef .tc main_arg9) := by
  dsimp only [hostOps0_2]
  after_results_simp <;> rfl
set_option maxHeartbeats 4000000 in
theorem S02_keep_main_arg10 : StableHlo.after hostOps0_2 V (Proc.devRef .tc main_arg10) = V (Proc.devRef .tc main_arg10) := by
  dsimp only [hostOps0_2]
  after_results_simp <;> rfl

set_option maxHeartbeats 4000000 in
theorem S1_agg : StableHlo.after hostOps1 V (Proc.devRef .tc main_v42)
    = agg64 (V (Proc.devRef .tc main_v29)) (V (Proc.devRef .tc main_v1)) (V (Proc.devRef .tc main_v3)) (V (Proc.devRef .tc main_v14)) := by
  dsimp only [hostOps1]
  after_results_simp <;> rfl

set_option maxHeartbeats 4000000 in
theorem S1_b : StableHlo.after hostOps1 V (Proc.devRef .tc main_v43)
    = shapeCast S1x32 (V (Proc.devRef .tc main_arg6)) Facts₀.shapeCasts_S32_S1x32 := by
  dsimp only [hostOps1]
  after_results_simp <;> rfl

set_option maxHeartbeats 4000000 in
theorem S1_keep_main_v29 : StableHlo.after hostOps1 V (Proc.devRef .tc main_v29) = V (Proc.devRef .tc main_v29) := by
  dsimp only [hostOps1]
  after_results_simp <;> rfl
set_option maxHeartbeats 4000000 in
theorem S1_keep_main_v1 : StableHlo.after hostOps1 V (Proc.devRef .tc main_v1) = V (Proc.devRef .tc main_v1) := by
  dsimp only [hostOps1]
  after_results_simp <;> rfl
set_option maxHeartbeats 4000000 in
theorem S1_keep_main_v3 : StableHlo.after hostOps1 V (Proc.devRef .tc main_v3) = V (Proc.devRef .tc main_v3) := by
  dsimp only [hostOps1]
  after_results_simp <;> rfl
set_option maxHeartbeats 4000000 in
theorem S1_keep_main_v14 : StableHlo.after hostOps1 V (Proc.devRef .tc main_v14) = V (Proc.devRef .tc main_v14) := by
  dsimp only [hostOps1]
  after_results_simp <;> rfl
set_option maxHeartbeats 4000000 in
theorem S1_keep_main_arg5 : StableHlo.after hostOps1 V (Proc.devRef .tc main_arg5) = V (Proc.devRef .tc main_arg5) := by
  dsimp only [hostOps1]
  after_results_simp <;> rfl
set_option maxHeartbeats 4000000 in
theorem S1_keep_main_arg7 : StableHlo.after hostOps1 V (Proc.devRef .tc main_arg7) = V (Proc.devRef .tc main_arg7) := by
  dsimp only [hostOps1]
  after_results_simp <;> rfl
set_option maxHeartbeats 4000000 in
theorem S1_keep_main_arg8 : StableHlo.after hostOps1 V (Proc.devRef .tc main_arg8) = V (Proc.devRef .tc main_arg8) := by
  dsimp only [hostOps1]
  after_results_simp <;> rfl
set_option maxHeartbeats 4000000 in
theorem S1_keep_main_arg9 : StableHlo.after hostOps1 V (Proc.devRef .tc main_arg9) = V (Proc.devRef .tc main_arg9) := by
  dsimp only [hostOps1]
  after_results_simp <;> rfl
set_option maxHeartbeats 4000000 in
theorem S1_keep_main_arg10 : StableHlo.after hostOps1 V (Proc.devRef .tc main_arg10) = V (Proc.devRef .tc main_arg10) := by
  dsimp only [hostOps1]
  after_results_simp <;> rfl

set_option maxHeartbeats 4000000 in
theorem S2_agg : StableHlo.after hostOps2 V (Proc.devRef .tc main_v57)
    = agg32 (V (Proc.devRef .tc main_v44)) (V (Proc.devRef .tc main_v1)) (V (Proc.devRef .tc main_v3)) (V (Proc.devRef .tc main_v14)) := by
  dsimp only [hostOps2]
  after_results_simp <;> rfl

set_option maxHeartbeats 4000000 in
theorem S2_b : StableHlo.after hostOps2 V (Proc.devRef .tc main_v58)
    = shapeCast S1x20 (V (Proc.devRef .tc main_arg9)) Facts₀.shapeCasts_S20_S1x20 := by
  dsimp only [hostOps2]
  after_results_simp <;> rfl

set_option maxHeartbeats 4000000 in
theorem S2_keep_main_v44 : StableHlo.after hostOps2 V (Proc.devRef .tc main_v44) = V (Proc.devRef .tc main_v44) := by
  dsimp only [hostOps2]
  after_results_simp <;> rfl
set_option maxHeartbeats 4000000 in
theorem S2_keep_main_arg8 : StableHlo.after hostOps2 V (Proc.devRef .tc main_arg8) = V (Proc.devRef .tc main_arg8) := by
  dsimp only [hostOps2]
  after_results_simp <;> rfl
set_option maxHeartbeats 4000000 in
theorem S2_keep_main_arg10 : StableHlo.after hostOps2 V (Proc.devRef .tc main_arg10) = V (Proc.devRef .tc main_arg10) := by
  dsimp only [hostOps2]
  after_results_simp <;> rfl

end Stretches

/-! ## Before the first region: the aggregated input features and the first bias row -/

theorem W3_src : W3 m ρ c (Proc.devRef .tc main_v1) = src (m ((c.tc : Thread nD τ).loc main_arg1)) :=
  (S02_keep_main_v1 (W2 m ρ c)).trans (W2_src m ρ c)
theorem W3_dst : W3 m ρ c (Proc.devRef .tc main_v3) = dst (m ((c.tc : Thread nD τ).loc main_arg1)) :=
  (S02_keep_main_v3 (W2 m ρ c)).trans (W2_dst m ρ c)
theorem W3_inv : W3 m ρ c (Proc.devRef .tc main_v14) = invDeg (dst (m ((c.tc : Thread nD τ).loc main_arg1))) :=
  (S02_keep_main_v14 (W2 m ρ c)).trans (W2_inv m ρ c)
theorem W3_arg0 : W3 m ρ c (Proc.devRef .tc main_arg0) = m ((c.tc : Thread nD τ).loc main_arg0) :=
  (S02_keep_main_arg0 (W2 m ρ c)).trans (W2_arg0 m ρ c)
theorem W3_arg2 : W3 m ρ c (Proc.devRef .tc main_arg2) = m ((c.tc : Thread nD τ).loc main_arg2) :=
  (S02_keep_main_arg2 (W2 m ρ c)).trans (W2_arg2 m ρ c)
theorem W3_arg4 : W3 m ρ c (Proc.devRef .tc main_arg4) = m ((c.tc : Thread nD τ).loc main_arg4) :=
  (S02_keep_main_arg4 (W2 m ρ c)).trans (W2_arg4 m ρ c)
theorem W3_arg5 : W3 m ρ c (Proc.devRef .tc main_arg5) = m ((c.tc : Thread nD τ).loc main_arg5) :=
  (S02_keep_main_arg5 (W2 m ρ c)).trans (W2_arg5 m ρ c)
theorem W3_arg6 : W3 m ρ c (Proc.devRef .tc main_arg6) = m ((c.tc : Thread nD τ).loc main_arg6) :=
  (S02_keep_main_arg6 (W2 m ρ c)).trans (W2_arg6 m ρ c)
theorem W3_arg7 : W3 m ρ c (Proc.devRef .tc main_arg7) = m ((c.tc : Thread nD τ).loc main_arg7) :=
  (S02_keep_main_arg7 (W2 m ρ c)).trans (W2_arg7 m ρ c)
theorem W3_arg8 : W3 m ρ c (Proc.devRef .tc main_arg8) = m ((c.tc : Thread nD τ).loc main_arg8) :=
  (S02_keep_main_arg8 (W2 m ρ c)).trans (W2_arg8 m ρ c)
theorem W3_arg9 : W3 m ρ c (Proc.devRef .tc main_arg9) = m ((c.tc : Thread nD τ).loc main_arg9) :=
  (S02_keep_main_arg9 (W2 m ρ c)).trans (W2_arg9 m ρ c)
theorem W3_arg10 : W3 m ρ c (Proc.devRef .tc main_arg10) = m ((c.tc : Thread nD τ).loc main_arg10) :=
  (S02_keep_main_arg10 (W2 m ρ c)).trans (W2_arg10 m ρ c)

theorem W3_agg : W3 m ρ c (Proc.devRef .tc main_v27) = agg128 (m ((c.tc : Thread nD τ).loc main_arg0)) (src (m ((c.tc : Thread nD τ).loc main_arg1))) (dst (m ((c.tc : Thread nD τ).loc main_arg1))) (invDeg (dst (m ((c.tc : Thread nD τ).loc main_arg1)))) :=
  (S02_agg (W2 m ρ c)).trans (by rw [W2_arg0, W2_src, W2_dst, W2_inv])

theorem W3_b : W3 m ρ c (Proc.devRef .tc main_v28) = shapeCast S1x64 (m ((c.tc : Thread nD τ).loc main_arg3)) Facts₀.shapeCasts_S64_S1x64 :=
  (S02_b (W2 m ρ c)).trans (by rw [W2_arg3])

/-! ## After the first region -/

theorem W4_h1 : W4 m ρ c (Proc.devRef .tc main_v29) = h1 m c := by
  refine (W4_arr m ρ c 5).trans ?_
  refine (Cert.KernelIdeal.Region0.final (V3 m ρ) c).trans ?_
  show Cert.KernelIdeal.Region0.G (W3 m ρ c (Proc.devRef .tc main_v27)) (W3 m ρ c (Proc.devRef .tc main_arg0))
    (W3 m ρ c (Proc.devRef .tc main_arg2)) (W3 m ρ c (Proc.devRef .tc main_arg4)) (W3 m ρ c (Proc.devRef .tc main_v28)) = _
  rw [W3_agg, W3_arg0, W3_arg2, W3_arg4, W3_b]
  exact Cert.Bridge.G0_eq_lin1 _ _ _ _ _

theorem W4_src : W4 m ρ c (Proc.devRef .tc main_v1) = src (m ((c.tc : Thread nD τ).loc main_arg1)) :=
  (W4_of_ne m ρ c main_v1 (by decide)).trans (W3_src m ρ c)
theorem W4_dst : W4 m ρ c (Proc.devRef .tc main_v3) = dst (m ((c.tc : Thread nD τ).loc main_arg1)) :=
  (W4_of_ne m ρ c main_v3 (by decide)).trans (W3_dst m ρ c)
theorem W4_inv : W4 m ρ c (Proc.devRef .tc main_v14) = invDeg (dst (m ((c.tc : Thread nD τ).loc main_arg1))) :=
  (W4_of_ne m ρ c main_v14 (by decide)).trans (W3_inv m ρ c)
theorem W4_arg5 : W4 m ρ c (Proc.devRef .tc main_arg5) = m ((c.tc : Thread nD τ).loc main_arg5) :=
  (W4_of_ne m ρ c main_arg5 (by decide)).trans (W3_arg5 m ρ c)
theorem W4_arg6 : W4 m ρ c (Proc.devRef .tc main_arg6) = m ((c.tc : Thread nD τ).loc main_arg6) :=
  (W4_of_ne m ρ c main_arg6 (by decide)).trans (W3_arg6 m ρ c)
theorem W4_arg7 : W4 m ρ c (Proc.devRef .tc main_arg7) = m ((c.tc : Thread nD τ).loc main_arg7) :=
  (W4_of_ne m ρ c main_arg7 (by decide)).trans (W3_arg7 m ρ c)
theorem W4_arg8 : W4 m ρ c (Proc.devRef .tc main_arg8) = m ((c.tc : Thread nD τ).loc main_arg8) :=
  (W4_of_ne m ρ c main_arg8 (by decide)).trans (W3_arg8 m ρ c)
theorem W4_arg9 : W4 m ρ c (Proc.devRef .tc main_arg9) = m ((c.tc : Thread nD τ).loc main_arg9) :=
  (W4_of_ne m ρ c main_arg9 (by decide)).trans (W3_arg9 m ρ c)
theorem W4_arg10 : W4 m ρ c (Proc.devRef .tc main_arg10) = m ((c.tc : Thread nD τ).loc main_arg10) :=
  (W4_of_ne m ρ c main_arg10 (by decide)).trans (W3_arg10 m ρ c)

/-! ## Before the second region -/

theorem W5_agg : W5 m ρ c (Proc.devRef .tc main_v42) = agg64 (h1 m c) (src (m ((c.tc : Thread nD τ).loc main_arg1))) (dst (m ((c.tc : Thread nD τ).loc main_arg1))) (invDeg (dst (m ((c.tc : Thread nD τ).loc main_arg1)))) :=
  (S1_agg (W4 m ρ c)).trans (by rw [W4_h1, W4_src, W4_dst, W4_inv])

theorem W5_b : W5 m ρ c (Proc.devRef .tc main_v43) = shapeCast S1x32 (m ((c.tc : Thread nD τ).loc main_arg6)) Facts₀.shapeCasts_S32_S1x32 :=
  (S1_b (W4 m ρ c)).trans (by rw [W4_arg6])

theorem W5_h1 : W5 m ρ c (Proc.devRef .tc main_v29) = h1 m c :=
  (S1_keep_main_v29 (W4 m ρ c)).trans (W4_h1 m ρ c)

theorem W5_src : W5 m ρ c (Proc.devRef .tc main_v1) = src (m ((c.tc : Thread nD τ).loc main_arg1)) :=
  (S1_keep_main_v1 (W4 m ρ c)).trans (W4_src m ρ c)
theorem W5_dst : W5 m ρ c (Proc.devRef .tc main_v3) = dst (m ((c.tc : Thread nD τ).loc main_arg1)) :=
  (S1_keep_main_v3 (W4 m ρ c)).trans (W4_dst m ρ c)
theorem W5_inv : W5 m ρ c (Proc.devRef .tc main_v14) = invDeg (dst (m ((c.tc : Thread nD τ).loc main_arg1))) :=
  (S1_keep_main_v14 (W4 m ρ c)).trans (W4_inv m ρ c)
theorem W5_arg5 : W5 m ρ c (Proc.devRef .tc main_arg5) = m ((c.tc : Thread nD τ).loc main_arg5) :=
  (S1_keep_main_arg5 (W4 m ρ c)).trans (W4_arg5 m ρ c)
theorem W5_arg7 : W5 m ρ c (Proc.devRef .tc main_arg7) = m ((c.tc : Thread nD τ).loc main_arg7) :=
  (S1_keep_main_arg7 (W4 m ρ c)).trans (W4_arg7 m ρ c)
theorem W5_arg8 : W5 m ρ c (Proc.devRef .tc main_arg8) = m ((c.tc : Thread nD τ).loc main_arg8) :=
  (S1_keep_main_arg8 (W4 m ρ c)).trans (W4_arg8 m ρ c)
theorem W5_arg9 : W5 m ρ c (Proc.devRef .tc main_arg9) = m ((c.tc : Thread nD τ).loc main_arg9) :=
  (S1_keep_main_arg9 (W4 m ρ c)).trans (W4_arg9 m ρ c)
theorem W5_arg10 : W5 m ρ c (Proc.devRef .tc main_arg10) = m ((c.tc : Thread nD τ).loc main_arg10) :=
  (S1_keep_main_arg10 (W4 m ρ c)).trans (W4_arg10 m ρ c)

/-! ## After the second region -/

theorem W6_h2 : W6 m ρ c (Proc.devRef .tc main_v44) = h2 m c := by
  refine (W6_arr m ρ c 5).trans ?_
  refine (Cert.KernelIdeal.Region1.final (V5 m ρ) c).trans ?_
  show Cert.KernelIdeal.Region1.G (W5 m ρ c (Proc.devRef .tc main_v42)) (W5 m ρ c (Proc.devRef .tc main_v29))
    (W5 m ρ c (Proc.devRef .tc main_arg5)) (W5 m ρ c (Proc.devRef .tc main_arg7)) (W5 m ρ c (Proc.devRef .tc main_v43)) = _
  rw [W5_agg, W5_h1, W5_arg5, W5_arg7, W5_b]
  exact Cert.Bridge.G1_eq_lin2 _ _ _ _ _

theorem W6_src : W6 m ρ c (Proc.devRef .tc main_v1) = src (m ((c.tc : Thread nD τ).loc main_arg1)) :=
  (W6_of_ne m ρ c main_v1 (by decide)).trans (W5_src m ρ c)
theorem W6_dst : W6 m ρ c (Proc.devRef .tc main_v3) = dst (m ((c.tc : Thread nD τ).loc main_arg1)) :=
  (W6_of_ne m ρ c main_v3 (by decide)).trans (W5_dst m ρ c)
theorem W6_inv : W6 m ρ c (Proc.devRef .tc main_v14) = invDeg (dst (m ((c.tc : Thread nD τ).loc main_arg1))) :=
  (W6_of_ne m ρ c main_v14 (by decide)).trans (W5_inv m ρ c)
theorem W6_arg8 : W6 m ρ c (Proc.devRef .tc main_arg8) = m ((c.tc : Thread nD τ).loc main_arg8) :=
  (W6_of_ne m ρ c main_arg8 (by decide)).trans (W5_arg8 m ρ c)
theorem W6_arg9 : W6 m ρ c (Proc.devRef .tc main_arg9) = m ((c.tc : Thread nD τ).loc main_arg9) :=
  (W6_of_ne m ρ c main_arg9 (by decide)).trans (W5_arg9 m ρ c)
theorem W6_arg10 : W6 m ρ c (Proc.devRef .tc main_arg10) = m ((c.tc : Thread nD τ).loc main_arg10) :=
  (W6_of_ne m ρ c main_arg10 (by decide)).trans (W5_arg10 m ρ c)

/-! ## Before the third region -/

theorem W7_agg : W7 m ρ c (Proc.devRef .tc main_v57) = agg32 (h2 m c) (src (m ((c.tc : Thread nD τ).loc main_arg1))) (dst (m ((c.tc : Thread nD τ).loc main_arg1))) (invDeg (dst (m ((c.tc : Thread nD τ).loc main_arg1)))) :=
  (S2_agg (W6 m ρ c)).trans (by rw [W6_h2, W6_src, W6_dst, W6_inv])

theorem W7_b : W7 m ρ c (Proc.devRef .tc main_v58) = shapeCast S1x20 (m ((c.tc : Thread nD τ).loc main_arg9)) Facts₀.shapeCasts_S20_S1x20 :=
  (S2_b (W6 m ρ c)).trans (by rw [W6_arg9])

theorem W7_h2 : W7 m ρ c (Proc.devRef .tc main_v44) = h2 m c :=
  (S2_keep_main_v44 (W6 m ρ c)).trans (W6_h2 m ρ c)

theorem W7_arg8 : W7 m ρ c (Proc.devRef .tc main_arg8) = m ((c.tc : Thread nD τ).loc main_arg8) :=
  (S2_keep_main_arg8 (W6 m ρ c)).trans (W6_arg8 m ρ c)
theorem W7_arg10 : W7 m ρ c (Proc.devRef .tc main_arg10) = m ((c.tc : Thread nD τ).loc main_arg10) :=
  (S2_keep_main_arg10 (W6 m ρ c)).trans (W6_arg10 m ρ c)

/-! ## After the third region: the result -/

/-- The result array after the run is the network of the argument arrays. -/
theorem W8_out : W8 m ρ c (Proc.devRef .tc main_v59)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W8_arr m ρ c 5).trans ?_
  refine (Cert.KernelIdeal.Region2.final (V7 m ρ) c).trans ?_
  show Cert.KernelIdeal.Region2.G (W7 m ρ c (Proc.devRef .tc main_v57)) (W7 m ρ c (Proc.devRef .tc main_v44))
    (W7 m ρ c (Proc.devRef .tc main_arg8)) (W7 m ρ c (Proc.devRef .tc main_arg10)) (W7 m ρ c (Proc.devRef .tc main_v58)) = _
  rw [W7_agg, W7_h2, W7_arg8, W7_arg10, W7_b]
  exact Cert.Bridge.G2_eq_lin3 _ _ _ _ _

end Cert.KernelIdeal.Chain

end
-- ==== Proof.RefEq.lean ====
/-
  The reference's result term is the network of its argument arrays: the generated composed term of the reference's
  host operations is, operation for operation, the aggregation and the layers the network is spelt with.
-/
import proofs.«149559_j69475390980569_1_alg».proof.Proof.RefRun
import proofs.«149559_j69475390980569_1_alg».proof.Proof.Stages

set_option maxRecDepth 16384

noncomputable section

namespace Cert.RefEq

open Idealize.ShloMosaic Idealize.ShloMosaic.TcCoe Idealize.SL.Sem
open Cert.Stages

set_option maxHeartbeats 4000000 in
/-- The reference's result is the network of its arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v73 (F := Ideal) m c
      = net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) := by
  unfold Cert.ReferenceIdeal.ValueP.res_main_v73
  rfl

end Cert.RefEq

end
-- ==== Proof.lean ====
/-
  A three-layer mean-aggregation graph convolution (GraphSAGE) on 200000 nodes and 640000 edges, 128 → 64 → 32 → 20
  features. The kernel program does the irregular part (gathering each edge's source row, adding it into the destination
  row, scaling by the reciprocal in-degree) with host operations and the dense part of each layer in a pipelined region
  over 50 blocks of 4000 nodes: aggregated features times the left weights plus node features times the right weights
  plus the bias, cut off below at zero in the first two layers, with the matrix products on operands narrowed to
  sixteen-bit floats. The reference does everything with host operations and adds the bias between the two products.

  At the ideal values a change of float format is the identity and every operation is the exact one on the extended
  reals, so a region's product into a zero accumulator is the host's product, and the two orders of adding the bias
  agree because addition of extended reals is commutative and associative — no finiteness of the inputs is used. The
  host operations around the dense part are the same in both programs. So both result arrays are one function, `net`,
  of the argument arrays:
    * the kernel program's run ends with every program-long buffer at the contents folded through its host stretches
      and regions (KRun); a region's result array is the layer of the arrays it finds, block by block (Region0–2), which
      is the reference's layer (Layer, Bridge); walking the fold gives `net` at the result array (KChain);
    * the reference's run ends at the composed term of its host operations, which is `net` by unfolding (RefRun, RefEq).
  The three frames are the generated ones (the reference's is its run with the result dropped); the idealization's
  ledger is empty.
-/
import proofs.«149559_j69475390980569_1_alg».proof.Defs
import proofs.«149559_j69475390980569_1_alg».proof.Proof.Gen.Kernel
import proofs.«149559_j69475390980569_1_alg».proof.Proof.Gen.Kernel.Skeleton
import proofs.«149559_j69475390980569_1_alg».proof.Proof.Gen.Kernel.Launch
import proofs.«149559_j69475390980569_1_alg».proof.Proof.Gen.Kernel.Points
import proofs.«149559_j69475390980569_1_alg».proof.Proof.Gen.Kernel.Frame
import proofs.«149559_j69475390980569_1_alg».proof.Proof.Gen.KernelIdeal
import proofs.«149559_j69475390980569_1_alg».proof.Proof.Gen.KernelIdeal.Skeleton
import proofs.«149559_j69475390980569_1_alg».proof.Proof.Gen.KernelIdeal.Launch
import proofs.«149559_j69475390980569_1_alg».proof.Proof.Gen.KernelIdeal.Points
import proofs.«149559_j69475390980569_1_alg».proof.Proof.Gen.KernelIdeal.Frame
import proofs.«149559_j69475390980569_1_alg».proof.Proof.Gen.ReferenceIdeal
import proofs.«149559_j69475390980569_1_alg».proof.Proof.Gen.Pre_finite_inputs
import proofs.«149559_j69475390980569_1_alg».proof.Proof.KRun
import proofs.«149559_j69475390980569_1_alg».proof.Proof.KChain
import proofs.«149559_j69475390980569_1_alg».proof.Proof.RefRun
import proofs.«149559_j69475390980569_1_alg».proof.Proof.RefEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs, run from memories agreeing on the arguments, end with the network of the arguments in their result
    arrays. -/
theorem algebraic : Cert.algebraic_KernelIdeal_ReferenceIdeal := by
  intro m ρ m' ρ' _ hagree
  refine ⟨fun c => Cert.Stages.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.W8_out m ρ c), (h c).2⟩)
      (Cert.KernelIdeal.GenRun.run_result m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    refine (Cert.RefEq.res_eq m' c).trans ?_
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
